-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x92 : Shape := ⟨2, ![16384, 92]⟩
abbrev S16384x16384 : Shape := ⟨2, ![16384, 16384]⟩
abbrev S16384x41 : Shape := ⟨2, ![16384, 41]⟩
abbrev S64x41 : Shape := ⟨2, ![64, 41]⟩
abbrev S16384 : Shape := ⟨1, ![16384]⟩
abbrev S92x64 : Shape := ⟨2, ![92, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x92 : S_.BroadcastsInDim S16384x92 (![] : Fin 0 → Fin S16384x92.rank)
  reducesTo_S16384x92_S_d0_1 : S16384x92.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384x41 : S_.BroadcastsInDim S16384x41 (![] : Fin 0 → Fin S16384x41.rank)
  reducesTo_S16384x41_S_d0_1 : S16384x41.ReducesTo [0, 1] S_
  bcast_S_S64x41 : S_.BroadcastsInDim S64x41 (![] : Fin 0 → Fin S64x41.rank)
  reducesTo_S64x41_S_d0_1 : S64x41.ReducesTo [0, 1] S_
  bcast_S_S92x64 : S_.BroadcastsInDim S92x64 (![] : Fin 0 → Fin S92x64.rank)
  reducesTo_S92x64_S_d0_1 : S92x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S64 .f32) (main_arg13 : FVec F S64x128 .f32) (main_arg14 : FVec F S128 .f32) (main_arg15 : FVec F S128x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S128x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_v48 main_v49 main_v50

def fn_part1 {F : FTy → Type} [FloatOps F] (main_arg5 : FVec F S92x64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S128x1 .f32) (main_arg16 : FVec F S1 .f32) (main_v13 : IVec S_ 1) (main_v16 : IVec S64x41 1) : IVec S_ 1 :=
  let main_c_5 : IVec S_ 1 := constantI S_ 1 1#1
  let main_v17 : IVec S_ 1 := (fun x v => Host.reduce IntOp.andi x v reducesTo_S64x41_S_d0_1 h_S_) main_v16 main_c_5
  let main_v18 : IVec S_ 1 := andi main_v13 main_v17
  let main_v19 : FVec F S92x64 .f32 := Host.absf main_arg5
  let main_cst_6 : FVec F S_ .f32 := constant S_ .f32 0x7F800000#32
  let main_v20 : FVec F S92x64 .f32 := broadcastInDim S92x64 ![] bcast_S_S92x64 main_cst_6
  let main_v21 : IVec S92x64 1 := cmpf .olt main_v19 main_v20
  let main_c_7 : IVec S_ 1 := constantI S_ 1 1#1
  let main_v22 : IVec S_ 1 := (fun x v => Host.reduce IntOp.andi x v reducesTo_S92x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S16384x92 .f32) (main_arg1 : FVec F S16384x16384 .f32) (main_arg2 : FVec F S16384x41 .f32) (main_arg3 : FVec F S64x41 .f32) (main_arg4 : IVec S16384 32) (main_arg5 : FVec F S92x64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x128 .f32) (main_arg14 : FVec F S128 .f32) (main_arg15 : FVec F S128x1 .f32) (main_arg16 : FVec F S1 .f32) : IVec S_ 1 :=
  let main_v0 : FVec F S16384x92 .f32 := Host.absf main_arg0
  let main_cst : FVec F S_ .f32 := constant S_ .f32 0x7F800000#32
  let main_v1 : FVec F S16384x92 .f32 := broadcastInDim S16384x92 ![] bcast_S_S16384x92 main_cst
  let main_v2 : IVec S16384x92 1 := cmpf .olt main_v0 main_v1
  let main_c : IVec S_ 1 := constantI S_ 1 1#1
  let main_v3 : IVec S_ 1 := (fun x v => Host.reduce IntOp.andi x v reducesTo_S16384x92_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x41 .f32 := Host.absf main_arg2
  let main_cst_2 : FVec F S_ .f32 := constant S_ .f32 0x7F800000#32
  let main_v10 : FVec F S16384x41 .f32 := broadcastInDim S16384x41 ![] bcast_S_S16384x41 main_cst_2
  let main_v11 : IVec S16384x41 1 := cmpf .olt main_v9 main_v10
  let main_c_3 : IVec S_ 1 := constantI S_ 1 1#1
  let main_v12 : IVec S_ 1 := (fun x v => Host.reduce IntOp.andi x v reducesTo_S16384x41_S_d0_1 h_S_) main_v11 main_c_3
  let main_v13 : IVec S_ 1 := andi main_v8 main_v12
  let main_v14 : FVec F S64x41 .f32 := Host.absf main_arg3
  let main_cst_4 : FVec F S_ .f32 := constant S_ .f32 0x7F800000#32
  let main_v15 : FVec F S64x41 .f32 := broadcastInDim S64x41 ![] bcast_S_S64x41 main_cst_4
  let main_v16 : IVec S64x41 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S16384x92 : Shape := ⟨2, ![16384, 92]⟩
abbrev S16384x16384 : Shape := ⟨2, ![16384, 16384]⟩
abbrev S16384x41 : Shape := ⟨2, ![16384, 41]⟩
abbrev S64x41 : Shape := ⟨2, ![64, 41]⟩
abbrev S16384 : Shape := ⟨1, ![16384]⟩
abbrev S92x64 : Shape := ⟨2, ![92, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S16384x64 : Shape := ⟨2, ![16384, 64]⟩
abbrev S1x64 : Shape := ⟨2, ![1, 64]⟩
abbrev S1024x2048 : Shape := ⟨2, ![1024, 2048]⟩
abbrev S2048x64 : Shape := ⟨2, ![2048, 64]⟩
abbrev S1024x64 : Shape := ⟨2, ![1024, 64]⟩
abbrev S_ : Shape := ⟨0, ![]⟩
abbrev S16384x1 : Shape := ⟨2, ![16384, 1]⟩
abbrev S64x1 : Shape := ⟨2, ![64, 1]⟩
abbrev S1x128 : Shape := ⟨2, ![1, 128]⟩
abbrev S1x1 : Shape := ⟨2, ![1, 1]⟩

abbrev nBuf : Space → Nat
  | .hbm => 82
  | .vmem => 20
  | .smem => 0
  | _ => 0

abbrev bufTy : (tb : Table) → Fin (tcTables nBuf tb) → BufTy
  | .hbm, ⟨0, _⟩ => ⟨S16384x92, .f32⟩
  | .hbm, ⟨1, _⟩ => ⟨S16384x16384, .f32⟩
  | .hbm, ⟨2, _⟩ => ⟨S16384x41, .f32⟩
  | .hbm, ⟨3, _⟩ => ⟨S64x41, .f32⟩
  | .hbm, ⟨4, _⟩ => ⟨S16384, .i32⟩
  | .hbm, ⟨5, _⟩ => ⟨S92x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S16384x64, .f32⟩
  | .hbm, ⟨48, _⟩ => ⟨S16384x64, .f32⟩
  | .hbm, ⟨49, _⟩ => ⟨S1x64, .f32⟩
  | .hbm, ⟨50, _⟩ => ⟨S16384x64, .f32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S64x64, .f32⟩
  | .hbm, ⟨57, _⟩ => ⟨S16384x1, .i32⟩
  | .hbm, ⟨58, _⟩ => ⟨S64x64, .f32⟩
  | .hbm, ⟨59, _⟩ => ⟨S_, .f32⟩
  | .hbm, ⟨60, _⟩ => ⟨S16384, .f32⟩
  | .hbm, ⟨61, _⟩ => ⟨S_, .f32⟩
  | .hbm, ⟨62, _⟩ => ⟨S64, .f32⟩
  | .hbm, ⟨63, _⟩ => ⟨S16384x1, .i32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64x1, .f32⟩
  | .hbm, ⟨69, _⟩ => ⟨S64x64, .f32⟩
  | .hbm, ⟨70, _⟩ => ⟨S64x64, .f32⟩
  | .hbm, ⟨71, _⟩ => ⟨S64x128, .f32⟩
  | .hbm, ⟨72, _⟩ => ⟨S1x128, .f32⟩
  | .hbm, ⟨73, _⟩ => ⟨S64x128, .f32⟩
  | .hbm, ⟨74, _⟩ => ⟨S64x128, .f32⟩
  | .hbm, ⟨75, _⟩ => ⟨S_, .f32⟩
  | .hbm, ⟨76, _⟩ => ⟨S64x128, .f32⟩
  | .hbm, ⟨77, _⟩ => ⟨S64x128, .f32⟩
  | .hbm, ⟨78, _⟩ => ⟨S64x1, .f32⟩
  | .hbm, ⟨79, _⟩ => ⟨S1x1, .f32⟩
  | .hbm, ⟨80, _⟩ => ⟨S64x1, .f32⟩
  | .hbm, ⟨81, _⟩ => ⟨S64x1, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x2048, .f32⟩
  | .local _ .vmem, ⟨11, _⟩ => ⟨S1024x2048, .f32⟩
  | .local _ .vmem, ⟨12, _⟩ => ⟨S2048x64, .f32⟩
  | .local _ .vmem, ⟨13, _⟩ => ⟨S2048x64, .f32⟩
  | .local _ .vmem, ⟨14, _⟩ => ⟨S64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S16384x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reducesTo_S16384x64_S64_d0 : S16384x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S16384_S16384x1_0 : S16384.BroadcastsInDim S16384x1 (![0] : Fin 1 → Fin S16384x1.rank)
  bcast_S_S16384 : S_.BroadcastsInDim S16384 (![] : Fin 0 → Fin S16384.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S16384x92_S92x64_S16384x64_1_0_0_1_n_n_wf : DotDims.WF S16384x92 S92x64 S16384x64 [1] [0] [0] [1] [] []
  dot_S16384x64_S64x64_S16384x64_1_0_0_1_n_n_wf : DotDims.WF S16384x64 S64x64 S16384x64 [1] [0] [0] [1] [] []
  dot_S1024x2048_S2048x64_S1024x64_1_0_0_1_n_n_wf : DotDims.WF S1024x2048 S2048x64 S1024x64 [1] [0] [0] [1] [] []
  scatter_S64x64_S16384x1_S16384x64_1_0_0_1_wf : ScatterDims.WF S64x64 S16384x1 S16384x64 [1] [0] [0] 1
  scatter_S64_S16384x1_S16384_n_0_0_1_wf : ScatterDims.WF S64 S16384x1 S16384 [] [0] [0] 1
  dot_S64x64_S64x128_S64x128_1_0_0_1_n_n_wf : DotDims.WF S64x64 S64x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .f32 = 32 ∨ (Rect.block (s := S16384x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)

variable [Facts₀]

def dot_S16384x92_S92x64_S16384x64_1_0_0_1_n_n : DotDims S16384x92 S92x64 S16384x64 where
  lhsContracting := [1]
  rhsContracting := [0]
  lhsNonContracting := [0]
  rhsNonContracting := [1]
  lhsBatch := []
  rhsBatch := []
  wf := dot_S16384x92_S92x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def scatter_S64x64_S16384x1_S16384x64_1_0_0_1 : ScatterDims S64x64 S16384x1 S16384x64 where
  updateWindowDims := [1]
  insertedWindowDims := [0]
  scatterDimsToOperandDims := [0]
  indexVectorDim := 1
  wf := scatter_S64x64_S16384x1_S16384x64_1_0_0_1_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x92 : Shape := ⟨2, ![16384, 92]⟩
abbrev S16384x16384 : Shape := ⟨2, ![16384, 16384]⟩
abbrev S16384x41 : Shape := ⟨2, ![16384, 41]⟩
abbrev S64x41 : Shape := ⟨2, ![64, 41]⟩
abbrev S16384 : Shape := ⟨1, ![16384]⟩
abbrev S92x64 : Shape := ⟨2, ![92, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S16384x64 : Shape := ⟨2, ![16384, 64]⟩
abbrev S1x64 : Shape := ⟨2, ![1, 64]⟩
abbrev S_ : Shape := ⟨0, ![]⟩
abbrev S16384x1 : Shape := ⟨2, ![16384, 1]⟩
abbrev S64x1 : Shape := ⟨2, ![64, 1]⟩
abbrev S1x128 : Shape := ⟨2, ![1, 128]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S16384x92, .f32⟩
  | .hbm, ⟨1, _⟩ => ⟨S16384x16384, .f32⟩
  | .hbm, ⟨2, _⟩ => ⟨S16384x41, .f32⟩
  | .hbm, ⟨3, _⟩ => ⟨S64x41, .f32⟩
  | .hbm, ⟨4, _⟩ => ⟨S16384, .i32⟩
  | .hbm, ⟨5, _⟩ => ⟨S92x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S16384x64, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S_, .f32⟩
  | .hbm, ⟨28, _⟩ => ⟨S16384x64, .f32⟩
  | .hbm, ⟨29, _⟩ => ⟨S16384x64, .i1⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S1x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S_, .f32⟩
  | .hbm, ⟨42, _⟩ => ⟨S16384x64, .f32⟩
  | .hbm, ⟨43, _⟩ => ⟨S16384x64, .i1⟩
  | .hbm, ⟨44, _⟩ => ⟨S_, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S16384x64, .f32⟩
  | .hbm, ⟨56, _⟩ => ⟨S16384x64, .f32⟩
  | .hbm, ⟨57, _⟩ => ⟨S16384x64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S1x64, .f32⟩
  | .hbm, ⟨71, _⟩ => ⟨S16384x64, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S_, .f32⟩
  | .hbm, ⟨80, _⟩ => ⟨S64x64, .f32⟩
  | .hbm, ⟨81, _⟩ => ⟨S16384x1, .i32⟩
  | .hbm, ⟨82, _⟩ => ⟨S64x64, .f32⟩
  | .hbm, ⟨83, _⟩ => ⟨S_, .f32⟩
  | .hbm, ⟨84, _⟩ => ⟨S16384, .f32⟩
  | .hbm, ⟨85, _⟩ => ⟨S_, .f32⟩
  | .hbm, ⟨86, _⟩ => ⟨S64, .f32⟩
  | .hbm, ⟨87, _⟩ => ⟨S16384x1, .i32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x64, .f32⟩
  | .hbm, ⟨94, _⟩ => ⟨S64x64, .f32⟩
  | .hbm, ⟨95, _⟩ => ⟨S64x128, .f32⟩
  | .hbm, ⟨96, _⟩ => ⟨S1x128, .f32⟩
  | .hbm, ⟨97, _⟩ => ⟨S64x128, .f32⟩
  | .hbm, ⟨98, _⟩ => ⟨S64x128, .f32⟩
  | .hbm, ⟨99, _⟩ => ⟨S_, .f32⟩
  | .hbm, ⟨100, _⟩ => ⟨S64x128, .f32⟩
  | .hbm, ⟨101, _⟩ => ⟨S64x128, .f32⟩
  | .hbm, ⟨102, _⟩ => ⟨S64x1, .f32⟩
  | .hbm, ⟨103, _⟩ => ⟨S1x1, .f32⟩
  | .hbm, ⟨104, _⟩ => ⟨S64x1, .f32⟩
  | .hbm, ⟨105, _⟩ => ⟨S64x1, .f32⟩
  | _, _ => ⟨S16384x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_cst_4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_6 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_v46 : Ref sig .tc := ⟨.hbm, 84, rfl⟩
abbrev main_cst_8 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_9 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S64_d0 : S16384x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S16384_S16384x1_0 : S16384.BroadcastsInDim S16384x1 (![0] : Fin 1 → Fin S16384x1.rank)
  bcast_S_S16384 : S_.BroadcastsInDim S16384 (![] : Fin 0 → Fin S16384.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S16384x92_S92x64_S16384x64_1_0_0_1_n_n_wf : DotDims.WF S16384x92 S92x64 S16384x64 [1] [0] [0] [1] [] []
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  scatter_S64x64_S16384x1_S16384x64_1_0_0_1_wf : ScatterDims.WF S64x64 S16384x1 S16384x64 [1] [0] [0] 1
  scatter_S64_S16384x1_S16384_n_0_0_1_wf : ScatterDims.WF S64 S16384x1 S16384 [] [0] [0] 1
  dot_S64x64_S64x128_S64x128_1_0_0_1_n_n_wf : DotDims.WF S64x64 S64x128 S64x128 [1] [0] [0] [1] [] []
  dot_S64x128_S128x1_S64x1_1_0_0_1_n_n_wf : DotDims.WF S64x128 S128x1 S64x1 [1] [0] [0] [1] [] []

variable [Facts₀]

def dot_S16384x92_S92x64_S16384x64_1_0_0_1_n_n : DotDims S16384x92 S92x64 S16384x64 where
  lhsContracting := [1]
  rhsContracting := [0]
  lhsNonContracting := [0]
  rhsNonContracting := [1]
  lhsBatch := []
  rhsBatch := []
  wf := dot_S16384x92_S92x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def scatter_S64x64_S16384x1_S16384x64_1_0_0_1 : ScatterDims S64x64 S16384x1 S16384x64 where
  updateWindowDims := [1]
  insertedWindowDims := [0]
  scatterDimsToOperandDims := [0]
  indexVectorDim := 1
  wf := scatter_S64x64_S16384x1_S16384x64_1_0_0_1_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Defs.lean ====
/-
  The two graph-convolution regions' proof data: what each window's staging buffer and the carried scratch
  accumulator hold after every grid point, as pure functions of the arrays the region is entered with.
-/
import proofs.«176179_j3418793968209_1_alg».proof.Proof.Gen.Kernel.Launch
import proofs.«176179_j3418793968209_1_alg».proof.Proof.Gen.Kernel.Skeleton
import proofs.«176179_j3418793968209_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! ## Region 0: one graph-convolution layer, the adjacency streamed block by block

The grid is 16 row blocks by 8 column blocks, walked row block by row block: point `t` is row block `t / 8`,
column block `t % 8`. The scratch buffer holds the running sum of the products of the row block's adjacency
blocks with the matching blocks of the features; it is reset at column block 0 and read into the output block at
column block 7. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after the body at position `n`: at a column block 0 the product of the point's two
    blocks added to the zero block, elsewhere added to what the point before left. -/
def acc0 (c : Dev nD) : (n : ℕ) → n < cfg0.N → Vec F S1024x64 .f32
  | 0, h => k0_pay2 (iblk0 V c 0 ⟨0, h⟩) (iblk0 V c 1 ⟨0, h⟩) (k0_pay1 (F := F))
  | n + 1, h =>
    if (n + 1) % 8 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc0 c n (Nat.lt_of_succ_lt h))

theorem acc0_first (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at a column block 7 (elsewhere the window is idle
    and this value is not consulted): the residual block plus the leaky rectifier of the accumulator plus the bias. -/
def out0 (c : Dev nD) (t : Fin cfg0.N) : Vec F S1024x64 .f32 :=
  k0_pay3 (acc0 V c t.val t.isLt) (iblk0 V c 2 t) (iblk0 V c 3 t)

/-- The scratch operand: a whole scoped buffer of the kernel's own. -/
abbrev scM0 : Memref sig .tc .vmem S1024x64 .f32 := Memref.whole cc0_scratch0

/-- The core's other scoped buffers — region 1's staging buffers and scratch, which region 0 never touches —, each
    at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The region invariant before position `n`: before the first point the class's (every scoped buffer no window
    stages at anything); afterwards the scratch at the accumulator the point before left, the core's other scoped
    buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of pipeline 0 on core `c`: the arrays as the region finds them; after the body at point `t`
    each input's buffer at its block, the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-! ## Region 1: one graph-convolution layer, the adjacency streamed block by block

The grid is 16 row blocks by 8 column blocks, walked row block by row block: point `t` is row block `t / 8`,
column block `t % 8`. The scratch buffer holds the running sum of the products of the row block's adjacency
blocks with the matching blocks of the features; it is reset at column block 0 and read into the output block at
column block 7. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after the body at position `n`: at a column block 0 the product of the point's two
    blocks added to the zero block, elsewhere added to what the point before left. -/
def acc1 (c : Dev nD) : (n : ℕ) → n < cfg1.N → Vec F S1024x64 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at a column block 7 (elsewhere the window is idle
    and this value is not consulted): the residual block plus the leaky rectifier of the accumulator plus the bias. -/
def out1 (c : Dev nD) (t : Fin cfg1.N) : Vec F S1024x64 .f32 :=
  k1_pay3 (acc1 V c t.val t.isLt) (iblk1 V c 2 t) (iblk1 V c 3 t)

/-- The scratch operand: a whole scoped buffer of the kernel's own. -/
abbrev scM1 : Memref sig .tc .vmem S1024x64 .f32 := Memref.whole cc1_scratch0

/-- The core's other scoped buffers — region 0's staging buffers and scratch, which region 1 never touches —, each
    at anything. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The region invariant before position `n`: before the first point the class's (every scoped buffer no window
    stages at anything); afterwards the scratch at the accumulator the point before left, the core's other scoped
    buffers at anything, the generator register at some state. -/
def PhiS1 (c : Dev nD) : (n : ℕ) → n ≤ cfg1.N → sProp 𝕄
  | 0, _ => Pipeline.ΦA spec1 c
  | n + 1, hn => iprop(iprop(rest1 c ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1 fullShare (acc1 V c (n - 1) (by omega))) ∗ (∃ r, prngReg c r)) := by
  cases n with
  | zero => exact absurd rfl hz
  | succ n => rfl

/-- The proof data of pipeline 1 on core `c`: the arrays as the region finds them; after the body at point `t`
    each input's buffer at its block, the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.K.Chain.lean ====
/-
  The contents of every buffer at each boundary between the host stretches and the two regions of the program.
-/
import proofs.«176179_j3418793968209_1_alg».proof.Proof.K.Defs
import Idealize.ShloMosaic.Lib.Pipeline.FrameSuffix
import Idealize.ShloMosaic.Lib.Pipeline.RegionsLoop
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core `c`'s buffers at launch. -/
abbrev W0 : Dev nD → Valuation τ sig (Elt F) := fun c b => m ((c : Dev nD), b)
/-- After the first host stretch (region 0's entry): the embedded features and their first projection are there. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry): the second projection is there. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the three closing host stretches: the normalization, the pooling, the readout. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)

end Cert.Kernel.Hand

end
-- ==== Proof.K.Common.lean ====
/-
  What the runs of the two regions' bodies share: the body's conditions in closed form over the grid, where the
  output window is idle, the current staging memrefs, and what the input windows' buffers hold when the body starts.
-/
import proofs.«176179_j3418793968209_1_alg».proof.Proof.K.Defs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-1 whole-block access, however spelt. -/
theorem hz2 : (![0, 0] : Fin 2 → Nat) = fun _ => 0 := funext fun a => by fin_cases a <;> rfl
theorem hz1 : (![0] : Fin 1 → Nat) = fun _ => 0 := funext fun a => by fin_cases a <;> rfl

/-! ## Reading back whole-block stores, over any shape and any payloads -/

section ReadBack

variable {Val : EltTy → Type} [∀ e, Nonempty (Val e)] {S : Shape} {e : EltTy} {sg : RefSig} {κ : Kind} {sp : Space}

/-- What a view reads after a list of writes whose LAST is a store through the whole-shape rectangle at zero offsets
    is that store's payload, whatever the earlier writes and the prior contents were. -/
theorem read_writes_unit_last (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  have hcov : ∀ y, ∃ p ∈ ((⟨Rect.unit off S.size inb, w⟩ : View.Piece Val S e) :: L), y ∈ p.1.set :=
    fun y => ⟨⟨Rect.unit off S.size inb, w⟩, List.Mem.head _, View.mem_set_unit_zero h inb y⟩
  rw [View.read_writes_eq_canon v f _ hcov, View.canon_cons_unit_zero h]

/-- A load through the whole-shape rectangle at zero offsets of a buffer that reads as `X` reads `X`. -/
theorem readAt_unit_whole (v : View sg κ sp S e) (f : v.ty.Contents Val) (X : S.Idx → Val e) (hf : v.read Val f = X)
    {off : Fin S.rank → Nat} (h : off = fun _ => 0) (inb : ∀ a, off a + S.size a ≤ S.size a) :
    v.readAt Val (Rect.unit off S.size inb).toLoadRect f = X := by
  rw [View.readAt_eq_ld, hf, View.ld_unit_zero h]

end ReadBack

-- the TensorCore's buffer contents when a region is entered: every statement below is at this parameter
variable (V : (c : Dev nD) → (b : Ref sig .tc) → Buf (Elt F) ((c : Thread nD τ).loc b))

/-! ## Region 0: the body's two conditions on the column block, and where the output window is idle -/

/-- The first conditional's test, from the grid coordinates: the column block is 0. -/
abbrev cond0_0 (i : grid0.Coords) : Prop := (Scalar.cmpi .ne (Scalar.extui (Scalar.cmpi .eq (BitVec.ofNat 32 (i 1).val) 0#32)) 0#32) = 1#1
/-- It holds at the points whose position is 0 modulo 8 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the column block is the last one. -/
abbrev cond0_1 (i : grid0.Coords) : Prop := k0_cond2 i = 1#1
/-- It holds at the points whose position is 7 modulo 8 — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-- Where the second test fails the output window is idle, -/
theorem idleAt0_4 : ∀ t : Fin cfg0.N, ¬cond0_1 (grid0.coords t) → cfg0.idle 4 (grid0.coords t) = true := by decide +kernel
/-- and its block is not written back; -/
theorem noFlush0_4 : ∀ t : Fin cfg0.N, ¬cond0_1 (grid0.coords t) → (cfg0.win 4).flush t = false := by decide +kernel
/-- where it holds the window is live. -/
theorem liveAt0_4 : ∀ t : Fin cfg0.N, cond0_1 (grid0.coords t) → cfg0.idle 4 (grid0.coords t) = false := by decide +kernel

/-- Each window's current staging memref at point `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)

/-- Each input window's current staging buffer holds its block at every point, fetched there or not: where it is
    not fetched the block index has not moved, and the body leaves the inputs in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0 V c 0]; try rfl) t d).trans
    (by unfold Dat.fetched Dat.blockOf iblk0; rw [A_eq0 V c 0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0 V c 1]; try rfl) t d).trans
    (by unfold Dat.fetched Dat.blockOf iblk0; rw [A_eq0 V c 1]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0 V c 2]; try rfl) t d).trans
    (by unfold Dat.fetched Dat.blockOf iblk0; rw [A_eq0 V c 2]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0 V c 3]; try rfl) t d).trans
    (by unfold Dat.fetched Dat.blockOf iblk0; rw [A_eq0 V c 3]; try rfl)

/-! ## Region 1: the body's two conditions on the column block, and where the output window is idle -/

/-- The first conditional's test, from the grid coordinates: the column block is 0. -/
abbrev cond1_0 (i : grid1.Coords) : Prop := (Scalar.cmpi .ne (Scalar.extui (Scalar.cmpi .eq (BitVec.ofNat 32 (i 1).val) 0#32)) 0#32) = 1#1
/-- It holds at the points whose position is 0 modulo 8 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the column block is the last one. -/
abbrev cond1_1 (i : grid1.Coords) : Prop := k1_cond2 i = 1#1
/-- It holds at the points whose position is 7 modulo 8 — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- Where the second test fails the output window is idle, -/
theorem idleAt1_4 : ∀ t : Fin cfg1.N, ¬cond1_1 (grid1.coords t) → cfg1.idle 4 (grid1.coords t) = true := by decide +kernel
/-- and its block is not written back; -/
theorem noFlush1_4 : ∀ t : Fin cfg1.N, ¬cond1_1 (grid1.coords t) → (cfg1.win 4).flush t = false := by decide +kernel
/-- where it holds the window is live. -/
theorem liveAt1_4 : ∀ t : Fin cfg1.N, cond1_1 (grid1.coords t) → cfg1.idle 4 (grid1.coords t) = false := by decide +kernel

/-- Each window's current staging memref at point `t`, as the pipeline passes it to the body, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)

/-- Each input window's current staging buffer holds its block at every point, fetched there or not: where it is
    not fetched the block index has not moved, and the body leaves the inputs in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1 V c 3]; try rfl) t d).trans
    (by unfold Dat.fetched Dat.blockOf iblk1; rw [A_eq1 V c 3]; try rfl)

end Cert.Kernel.Hand

end
-- ==== Proof.K.Run0A.lean ====
/-
  Region 0's body run whole in the control case where the column block is the first: the scratch is reset, then the product added.
-/
import proofs.«176179_j3418793968209_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the first (the first conditional taken, the second not): on whole
    staging memrefs holding the four input blocks, the output's buffer at `xi4` and the scratch at anything, it runs
    to the continuation with the inputs and the output's buffer as they were and the scratch at the product of the
    two blocks added to the zero block — the scratch is stored whole twice, and the second store's payload reads back
    the first's. -/
theorem kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S1024x2048 .f32) (x1 : Vec F S2048x64 .f32) (x2 : Vec F S64 .f32) (x3 : Vec F S1024x64 .f32) (xi4 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 x0 x1 (k0_pay1 (F := F)))) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  sl_unfold_words
  refine (read_writes_unit_last (Val := Elt F) arg7.view fs hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have e8 := View.readCov_unit_zero (Val := Elt F) (S := S1024x64) arg7.view hz2 inb_S1024x64_S1024x64_0_0 (k0_pay1 (F := F))
  rw [e0, e1, e8]

end Cert.Kernel.Hand

end
-- ==== Proof.K.Run0B.lean ====
/-
  Region 0's body run whole in the control case where the column block is neither the first nor the last: the product added to the carried scratch.
-/
import proofs.«176179_j3418793968209_1_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is neither the first nor the last (neither conditional taken): on whole
    staging memrefs holding the four input blocks, the output's buffer at `xi4` and the scratch at `xs`, it runs to
    the continuation with the inputs and the output's buffer as they were and the scratch at the product of the two
    blocks added to `xs` — its one store covers the scratch, and its payload's loads read whole buffers. -/
theorem kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S1024x2048 .f32) (x1 : Vec F S2048x64 .f32) (x2 : Vec F S64 .f32) (x3 : Vec F S1024x64 .f32) (xi4 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 x0 x1 xs)) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.Kernel.Hand

end
-- ==== Proof.K.Run0C.lean ====
/-
  Region 0's body run whole in the control case where the column block is the last: the product added, then the output block computed from the scratch.
-/
import proofs.«176179_j3418793968209_1_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the last (the first conditional not taken, the second taken): on whole
    staging memrefs holding the four input blocks, the output's buffer at anything and the scratch at `xs`, it runs
    to the continuation with the inputs as they were, the scratch at the product of the two blocks added to `xs`, and
    the output's buffer at the residual block plus the rectifier of that sum plus the bias — the second conditional
    reads back the scratch the body has just stored. -/
theorem kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S1024x2048 .f32) (x1 : Vec F S2048x64 .f32) (x2 : Vec F S64 .f32) (x3 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x1 xs) x2 x3) ∗ owns (c : Thread nD τ) arg7 fullShare (k0_pay2 x0 x1 xs)) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro
    sl_unfold_words
    refine (read_writes_unit_last (Val := Elt F) arg6.view f4 hz2 inb_S1024x64_S1024x64_0_0 _ _).trans ?_
    have e0 := readAt_unit_whole (Val := Elt F) arg2.view _ x0 hf0 hz2 inb_S1024x2048_S1024x2048_0_0
    have e1 := readAt_unit_whole (Val := Elt F) arg3.view _ x1 hf1 hz2 inb_S2048x64_S2048x64_0_0
    have e2 := readAt_unit_whole (Val := Elt F) arg4.view _ x2 hf2 hz1 inb_S64_S64_0
    have e3 := readAt_unit_whole (Val := Elt F) arg5.view _ x3 hf3 hz2 inb_S1024x64_S1024x64_0_0
    have es := readAt_unit_whole (Val := Elt F) arg7.view _ xs hfs hz2 inb_S1024x64_S1024x64_0_0
    have e17 := View.readCov_unit_zero (Val := Elt F) (S := S1024x64) arg7.view hz2 inb_S1024x64_S1024x64_0_0 (k0_pay2 x0 x1 xs)
    rw [e0, e1, es, e2, e3, e17]
  iexists _; isplitr
  swap; · iexact HS
  ipureintro
  sl_unfold_words
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.Kernel.Hand

end
-- ==== Proof.K.Run1A.lean ====
/-
  Region 1's body run whole in the control case where the column block is the first: the scratch is reset, then the product added.
-/
import proofs.«176179_j3418793968209_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the first (the first conditional taken, the second not): on whole
    staging memrefs holding the four input blocks, the output's buffer at `xi4` and the scratch at anything, it runs
    to the continuation with the inputs and the output's buffer as they were and the scratch at the product of the
    two blocks added to the zero block — the scratch is stored whole twice, and the second store's payload reads back
    the first's. -/
theorem kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x2048 .f32) (x1 : Vec F S2048x64 .f32) (x2 : Vec F S64 .f32) (x3 : Vec F S1024x64 .f32) (xi4 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 (k1_pay1 (F := F)))) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  sl_unfold_words
  refine (read_writes_unit_last (Val := Elt F) arg7.view fs hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have e8 := View.readCov_unit_zero (Val := Elt F) (S := S1024x64) arg7.view hz2 inb_S1024x64_S1024x64_0_0 (k1_pay1 (F := F))
  rw [e0, e1, e8]

end Cert.Kernel.Hand

end
-- ==== Proof.K.Run1B.lean ====
/-
  Region 1's body run whole in the control case where the column block is neither the first nor the last: the product added to the carried scratch.
-/
import proofs.«176179_j3418793968209_1_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is neither the first nor the last (neither conditional taken): on whole
    staging memrefs holding the four input blocks, the output's buffer at `xi4` and the scratch at `xs`, it runs to
    the continuation with the inputs and the output's buffer as they were and the scratch at the product of the two
    blocks added to `xs` — its one store covers the scratch, and its payload's loads read whole buffers. -/
theorem kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x2048 .f32) (x1 : Vec F S2048x64 .f32) (x2 : Vec F S64 .f32) (x3 : Vec F S1024x64 .f32) (xi4 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 xs)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.Kernel.Hand

end
-- ==== Proof.K.Run1C.lean ====
/-
  Region 1's body run whole in the control case where the column block is the last: the product added, then the output block computed from the scratch.
-/
import proofs.«176179_j3418793968209_1_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the last (the first conditional not taken, the second taken): on whole
    staging memrefs holding the four input blocks, the output's buffer at anything and the scratch at `xs`, it runs
    to the continuation with the inputs as they were, the scratch at the product of the two blocks added to `xs`, and
    the output's buffer at the residual block plus the rectifier of that sum plus the bias — the second conditional
    reads back the scratch the body has just stored. -/
theorem kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x2048 .f32) (x1 : Vec F S2048x64 .f32) (x2 : Vec F S64 .f32) (x3 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x0 x1 xs) x2 x3) ∗ owns (c : Thread nD τ) arg7 fullShare (k1_pay2 x0 x1 xs)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro
    sl_unfold_words
    refine (read_writes_unit_last (Val := Elt F) arg6.view f4 hz2 inb_S1024x64_S1024x64_0_0 _ _).trans ?_
    have e0 := readAt_unit_whole (Val := Elt F) arg2.view _ x0 hf0 hz2 inb_S1024x2048_S1024x2048_0_0
    have e1 := readAt_unit_whole (Val := Elt F) arg3.view _ x1 hf1 hz2 inb_S2048x64_S2048x64_0_0
    have e2 := readAt_unit_whole (Val := Elt F) arg4.view _ x2 hf2 hz1 inb_S64_S64_0
    have e3 := readAt_unit_whole (Val := Elt F) arg5.view _ x3 hf3 hz2 inb_S1024x64_S1024x64_0_0
    have es := readAt_unit_whole (Val := Elt F) arg7.view _ xs hfs hz2 inb_S1024x64_S1024x64_0_0
    have e17 := View.readCov_unit_zero (Val := Elt F) (S := S1024x64) arg7.view hz2 inb_S1024x64_S1024x64_0_0 (k1_pay2 x0 x1 xs)
    rw [e0, e1, es, e2, e3, e17]
  iexists _; isplitr
  swap; · iexact HS
  ipureintro
  sl_unfold_words
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.Kernel.Hand

end
-- ==== Proof.K.Body.lean ====
/-
  The body obligations of the two regions.
-/
import proofs.«176179_j3418793968209_1_alg».proof.Proof.K.Run0C
import proofs.«176179_j3418793968209_1_alg».proof.Proof.K.Run1C
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every statement below is at this parameter
variable (V : (c : Dev nD) → (b : Ref sig .tc) → Buf (Elt F) ((c : Thread nD τ).loc b))

/-! ## Region 0 -/

/-- The inputs are never idle. -/
theorem liveIn0_0 : ∀ t : Fin cfg0.N, cfg0.idle 0 (grid0.coords t) = false := fun _ => rfl
theorem liveIn0_1 : ∀ t : Fin cfg0.N, cfg0.idle 1 (grid0.coords t) = false := fun _ => rfl
theorem liveIn0_2 : ∀ t : Fin cfg0.N, cfg0.idle 2 (grid0.coords t) = false := fun _ => rfl
theorem liveIn0_3 : ∀ t : Fin cfg0.N, cfg0.idle 3 (grid0.coords t) = false := fun _ => rfl

/-- What the launch hands the region, in the shape the invariant has after the first point: the scratch as a memref
    owned at some contents, the core's other scoped buffers, the generator register. -/
theorem PhiA0_eq (c : Dev nD) :
    (Pipeline.ΦA spec0 c : sProp 𝕄) = iprop(iprop((∃ d, owns (c : Thread nD τ) scM0 fullShare d) ∗ rest0 c) ∗ (∃ r, prngReg c r)) := by
  unfold Pipeline.ΦA; rw [scopedRest0_eq]; unfold rest0; simp only [scM0, owns_whole]; try rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the column block says which control case the
    point is in; the invariant hands the body the scratch at what the point before left (at anything at the first
    point), and takes it back at this point's accumulator; the output window is idle except at the last column
    block, where its buffer is left at the output block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveIn0_0 t], after0_0]
  rw [show (dat0 V c).leavesExact 1 t = owns (c : Thread nD τ) (ms0_1 t) fullShare ((dat0 V c).after 1 t) from by
    unfold Dat.leavesExact; rw [liveIn0_1 t], after0_1]
  rw [show (dat0 V c).leavesExact 2 t = owns (c : Thread nD τ) (ms0_2 t) fullShare ((dat0 V c).after 2 t) from by
    unfold Dat.leavesExact; rw [liveIn0_2 t], after0_2]
  rw [show (dat0 V c).leavesExact 3 t = owns (c : Thread nD τ) (ms0_3 t) fullShare ((dat0 V c).after 3 t) from by
    unfold Dat.leavesExact; rw [liveIn0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by omega)
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      unfold out0
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]
    · iexists _; iexact HS
    iexact Hr
  iexact Hg

/-! ## Region 1 -/

/-- The inputs are never idle. -/
theorem liveIn1_0 : ∀ t : Fin cfg1.N, cfg1.idle 0 (grid1.coords t) = false := fun _ => rfl
theorem liveIn1_1 : ∀ t : Fin cfg1.N, cfg1.idle 1 (grid1.coords t) = false := fun _ => rfl
theorem liveIn1_2 : ∀ t : Fin cfg1.N, cfg1.idle 2 (grid1.coords t) = false := fun _ => rfl
theorem liveIn1_3 : ∀ t : Fin cfg1.N, cfg1.idle 3 (grid1.coords t) = false := fun _ => rfl

/-- What the launch hands the region gives the scratch as a memref owned at some contents, the core's other scoped
    buffers and the generator register (the scratch is the last of the scoped buffers: re-associated), -/
theorem PhiA1_in (c : Dev nD) :
    (Pipeline.ΦA spec1 c : sProp 𝕄) ⊢ iprop(iprop(rest1 c ∗ (∃ d, owns (c : Thread nD τ) scM1 fullShare d)) ∗ (∃ r, prngReg c r)) := by
  unfold Pipeline.ΦA; rw [scopedRest1_eq]; unfold rest1; simp only [scM1, owns_whole]
  iintro ⟨⟨Q0, Q1, Q2, Q3, Q4, Q5, Q6, Q7, Q8, Q9, HS⟩, Hg⟩
  isplitr [Hg]
  · isplitr [HS]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      iexact Q9
    iexact HS
  iexact Hg

/-- and back. -/
theorem PhiA1_out (c : Dev nD) :
    iprop(iprop(rest1 c ∗ (∃ d, owns (c : Thread nD τ) scM1 fullShare d)) ∗ (∃ r, prngReg c r)) ⊢ (Pipeline.ΦA spec1 c : sProp 𝕄) := by
  unfold Pipeline.ΦA; rw [scopedRest1_eq]; unfold rest1; simp only [scM1, owns_whole]
  iintro ⟨⟨⟨Q0, Q1, Q2, Q3, Q4, Q5, Q6, Q7, Q8, Q9⟩, HS⟩, Hg⟩
  isplitr [Hg]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    iexact HS
  iexact Hg

/-- What the launch hands the region, in the shape the invariant has after the first point. -/
theorem PhiA1_eq (c : Dev nD) :
    (Pipeline.ΦA spec1 c : sProp 𝕄) = iprop(iprop(rest1 c ∗ (∃ d, owns (c : Thread nD τ) scM1 fullShare d)) ∗ (∃ r, prngReg c r)) :=
  Idealize.SL.BI.Entails.antisymm (PhiA1_in c) (PhiA1_out c)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the column block says which control case the
    point is in; the invariant hands the body the scratch at what the point before left (at anything at the first
    point), and takes it back at this point's accumulator; the output window is idle except at the last column
    block, where its buffer is left at the output block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveIn1_0 t], after1_0]
  rw [show (dat1 V c).leavesExact 1 t = owns (c : Thread nD τ) (ms1_1 t) fullShare ((dat1 V c).after 1 t) from by
    unfold Dat.leavesExact; rw [liveIn1_1 t], after1_1]
  rw [show (dat1 V c).leavesExact 2 t = owns (c : Thread nD τ) (ms1_2 t) fullShare ((dat1 V c).after 2 t) from by
    unfold Dat.leavesExact; rw [liveIn1_2 t], after1_2]
  rw [show (dat1 V c).leavesExact 3 t = owns (c : Thread nD τ) (ms1_3 t) fullShare ((dat1 V c).after 3 t) from by
    unfold Dat.leavesExact; rw [liveIn1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [acc1_first V c t h0]
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by omega)
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      unfold out1
      rw [acc1_next V c t h0]
      rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [acc1_next V c t h0]
      rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Hr, HS⟩, Hg⟩
  isplitl [HS Hr]
  · isplitl [Hr]
    · iexact Hr
    iexists _; iexact HS
  iexact Hg

end Cert.Kernel.Hand

end
-- ==== Proof.K.Frame.lean ====
/-
  The whole run of the program, assembled from its seven segments: three stretches of host operations around and
  after the two graph-convolution regions. Each segment is entered from every unscoped buffer held at the contents
  the segment before it left; the last contents are read against the final memory.
-/
import proofs.«176179_j3418793968209_1_alg».proof.Proof.K.Chain
import proofs.«176179_j3418793968209_1_alg».proof.Proof.K.Body
import proofs.«176179_j3418793968209_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := StableHlo.held (c : Thread nD τ) (Pipeline.ucRefs τ sig) (W7 m c)

set_option backward.isDefEq.respectTransparency.types false in
/-- REGION 0 over the thread state: entered from every unscoped buffer at `W1`, left at `W2`. Its arrays
    are split out of the unscoped buffers and put back at the exit contents; the generator register goes into the
    region's invariant and comes back out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays
    are split out of the unscoped buffers and put back at the exit contents; the generator register goes into the
    region's invariant and comes back out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)) ]

/-- What the last host stretch leaves is the last thread state beside the core owing nothing: the generator register
    is let go. -/
theorem last_post (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, -, HO⟩
  isplitl [Hh]; · iexact Hh
  iexact HO

set_option backward.isDefEq.respectTransparency.types false in
/-- THE RUN: from any memory with zero counters, every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold Tₙ StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-! ## The arguments end as launched

No host operation writes an argument, and a region reads an argument through an input window or not at all, so the
fold of the boundary contents at an argument's buffer walks back to the launch memory. -/

/-- A reference none of the three closing stretches writes holds after them what region 1 left in it. -/
theorem W7_eq_W4 (c : Dev nD) (r : Ref sig .tc) (h2 : r ∉ hostOps2_2_W) (h1 : r ∉ hostOps2_1_W) (h0 : r ∉ hostOps2_W) :
    W7 m c (Proc.devRef .tc r) = W4 m c (Proc.devRef .tc r) :=
  (StableHlo.after_of_writes_sub hostOps2_2 _ hostOps2_2_writes h2).trans <|
    (StableHlo.after_of_writes_sub hostOps2_1 _ hostOps2_1_writes h1).trans <|
      StableHlo.after_of_writes_sub hostOps2 _ hostOps2_writes h0
/-- A reference the stretch between the regions does not write holds at region 1's entry what region 0 left in it. -/
theorem W3_eq_W2 (c : Dev nD) (r : Ref sig .tc) (h : r ∉ hostOps1_W) :
    W3 m c (Proc.devRef .tc r) = W2 m c (Proc.devRef .tc r) :=
  StableHlo.after_of_writes_sub hostOps1 _ hostOps1_writes h
/-- A reference the first stretch does not write holds at region 0's entry its launch contents. -/
theorem W1_eq_m (c : Dev nD) (r : Ref sig .tc) (h : r ∉ hostOps0_W) :
    W1 m c (Proc.devRef .tc r) = m ((c : Thread nD τ).loc r) :=
  (StableHlo.after_of_writes_sub hostOps0 _ hostOps0_writes h).trans rfl
/-- An input window's array leaves region 0 as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input window's array leaves region 1 as it entered it. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
/-- A reference no stretch writes and no region stages reaches the end as launched. -/
theorem W7_plain (c : Dev nD) (r : Ref sig .tc) (h22 : r ∉ hostOps2_2_W) (h21 : r ∉ hostOps2_1_W) (h20 : r ∉ hostOps2_W)
    (hr1 : ∀ w, Pipeline.arrRef spec1 w ≠ r) (h1 : r ∉ hostOps1_W) (hr0 : ∀ w, Pipeline.arrRef spec0 w ≠ r) (h0 : r ∉ hostOps0_W) :
    W7 m c (Proc.devRef .tc r) = m ((c : Thread nD τ).loc r) :=
  (W7_eq_W4 m c r h22 h21 h20).trans <| (W4_of_ne m c r hr1).trans <| (W3_eq_W2 m c r h1).trans <|
    (W2_of_ne m c r hr0).trans (W1_eq_m m c r h0)

theorem W7_main_arg0 (c : Dev nD) : W7 m c (Proc.devRef .tc main_arg0) = m ((c : Thread nD τ).loc main_arg0) :=
  W7_plain m c main_arg0 (by decide) (by decide) (by decide) (by decide) (by decide) (by decide) (by decide)
/-- `main_arg1`, the adjacency: window 0 of both regions, an input of each. -/
theorem W7_main_arg1 (c : Dev nD) : W7 m c (Proc.devRef .tc main_arg1) = m ((c : Thread nD τ).loc main_arg1) :=
  (W7_eq_W4 m c main_arg1 (by decide) (by decide) (by decide)).trans <| (W4_in m c 0 rfl).trans <|
    (W3_eq_W2 m c main_arg1 (by decide)).trans <| (W2_in m c 0 rfl).trans (W1_eq_m m c main_arg1 (by decide))
theorem W7_main_arg2 (c : Dev nD) : W7 m c (Proc.devRef .tc main_arg2) = m ((c : Thread nD τ).loc main_arg2) :=
  W7_plain m c main_arg2 (by decide) (by decide) (by decide) (by decide) (by decide) (by decide) (by decide)
theorem W7_main_arg3 (c : Dev nD) : W7 m c (Proc.devRef .tc main_arg3) = m ((c : Thread nD τ).loc main_arg3) :=
  W7_plain m c main_arg3 (by decide) (by decide) (by decide) (by decide) (by decide) (by decide) (by decide)
theorem W7_main_arg4 (c : Dev nD) : W7 m c (Proc.devRef .tc main_arg4) = m ((c : Thread nD τ).loc main_arg4) :=
  W7_plain m c main_arg4 (by decide) (by decide) (by decide) (by decide) (by decide) (by decide) (by decide)
theorem W7_main_arg5 (c : Dev nD) : W7 m c (Proc.devRef .tc main_arg5) = m ((c : Thread nD τ).loc main_arg5) :=
  W7_plain m c main_arg5 (by decide) (by decide) (by decide) (by decide) (by decide) (by decide) (by decide)
theorem W7_main_arg6 (c : Dev nD) : W7 m c (Proc.devRef .tc main_arg6) = m ((c : Thread nD τ).loc main_arg6) :=
  W7_plain m c main_arg6 (by decide) (by decide) (by decide) (by decide) (by decide) (by decide) (by decide)
theorem W7_main_arg7 (c : Dev nD) : W7 m c (Proc.devRef .tc main_arg7) = m ((c : Thread nD τ).loc main_arg7) :=
  W7_plain m c main_arg7 (by decide) (by decide) (by decide) (by decide) (by decide) (by decide) (by decide)
/-- `main_arg8`, the first layer's bias: window 2 of region 0, an input. -/
theorem W7_main_arg8 (c : Dev nD) : W7 m c (Proc.devRef .tc main_arg8) = m ((c : Thread nD τ).loc main_arg8) :=
  (W7_eq_W4 m c main_arg8 (by decide) (by decide) (by decide)).trans <| (W4_of_ne m c main_arg8 (by decide)).trans <|
    (W3_eq_W2 m c main_arg8 (by decide)).trans <| (W2_in m c 2 rfl).trans (W1_eq_m m c main_arg8 (by decide))
theorem W7_main_arg9 (c : Dev nD) : W7 m c (Proc.devRef .tc main_arg9) = m ((c : Thread nD τ).loc main_arg9) :=
  W7_plain m c main_arg9 (by decide) (by decide) (by decide) (by decide) (by decide) (by decide) (by decide)
/-- `main_arg10`, the second layer's bias: window 2 of region 1, an input. -/
theorem W7_main_arg10 (c : Dev nD) : W7 m c (Proc.devRef .tc main_arg10) = m ((c : Thread nD τ).loc main_arg10) :=
  (W7_eq_W4 m c main_arg10 (by decide) (by decide) (by decide)).trans <| (W4_in m c 2 rfl).trans <|
    (W3_eq_W2 m c main_arg10 (by decide)).trans <| (W2_of_ne m c main_arg10 (by decide)).trans (W1_eq_m m c main_arg10 (by decide))
theorem W7_main_arg11 (c : Dev nD) : W7 m c (Proc.devRef .tc main_arg11) = m ((c : Thread nD τ).loc main_arg11) :=
  W7_plain m c main_arg11 (by decide) (by decide) (by decide) (by decide) (by decide) (by decide) (by decide)
theorem W7_main_arg12 (c : Dev nD) : W7 m c (Proc.devRef .tc main_arg12) = m ((c : Thread nD τ).loc main_arg12) :=
  W7_plain m c main_arg12 (by decide) (by decide) (by decide) (by decide) (by decide) (by decide) (by decide)
theorem W7_main_arg13 (c : Dev nD) : W7 m c (Proc.devRef .tc main_arg13) = m ((c : Thread nD τ).loc main_arg13) :=
  W7_plain m c main_arg13 (by decide) (by decide) (by decide) (by decide) (by decide) (by decide) (by decide)
theorem W7_main_arg14 (c : Dev nD) : W7 m c (Proc.devRef .tc main_arg14) = m ((c : Thread nD τ).loc main_arg14) :=
  W7_plain m c main_arg14 (by decide) (by decide) (by decide) (by decide) (by decide) (by decide) (by decide)
theorem W7_main_arg15 (c : Dev nD) : W7 m c (Proc.devRef .tc main_arg15) = m ((c : Thread nD τ).loc main_arg15) :=
  W7_plain m c main_arg15 (by decide) (by decide) (by decide) (by decide) (by decide) (by decide) (by decide)
theorem W7_main_arg16 (c : Dev nD) : W7 m c (Proc.devRef .tc main_arg16) = m ((c : Thread nD τ).loc main_arg16) :=
  W7_plain m c main_arg16 (by decide) (by decide) (by decide) (by decide) (by decide) (by decide) (by decide)

/-- THE FRAME: from any memory with zero counters, every weakly fair execution of the program on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c),
    (h c _ (mem_uc main_arg13 (by decide))).trans (W7_main_arg13 m c),
    (h c _ (mem_uc main_arg14 (by decide))).trans (W7_main_arg14 m c),
    (h c _ (mem_uc main_arg15 (by decide))).trans (W7_main_arg15 m c),
    (h c _ (mem_uc main_arg16 (by decide))).trans (W7_main_arg16 m c)⟩) (run_all m ρ)

end Cert.Kernel.Hand

end
-- ==== Proof.KI.Defs.lean ====
/-
  The two graph-convolution regions' proof data: what each window's staging buffer and the carried scratch
  accumulator hold after every grid point, as pure functions of the arrays the region is entered with.
-/
import proofs.«176179_j3418793968209_1_alg».proof.Proof.Gen.KernelIdeal.Launch
import proofs.«176179_j3418793968209_1_alg».proof.Proof.Gen.KernelIdeal.Skeleton
import proofs.«176179_j3418793968209_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! ## Region 0: one graph-convolution layer, the adjacency streamed block by block

The grid is 16 row blocks by 8 column blocks, walked row block by row block: point `t` is row block `t / 8`,
column block `t % 8`. The scratch buffer holds the running sum of the products of the row block's adjacency
blocks with the matching blocks of the features; it is reset at column block 0 and read into the output block at
column block 7. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after the body at position `n`: at a column block 0 the product of the point's two
    blocks added to the zero block, elsewhere added to what the point before left. -/
def acc0 (c : Dev nD) : (n : ℕ) → n < cfg0.N → Vec F S1024x64 .f32
  | 0, h => k0_pay2 (iblk0 V c 0 ⟨0, h⟩) (iblk0 V c 1 ⟨0, h⟩) (k0_pay1 (F := F))
  | n + 1, h =>
    if (n + 1) % 8 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc0 c n (Nat.lt_of_succ_lt h))

theorem acc0_first (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at a column block 7 (elsewhere the window is idle
    and this value is not consulted): the residual block plus the leaky rectifier of the accumulator plus the bias. -/
def out0 (c : Dev nD) (t : Fin cfg0.N) : Vec F S1024x64 .f32 :=
  k0_pay3 (acc0 V c t.val t.isLt) (iblk0 V c 2 t) (iblk0 V c 3 t)

/-- The scratch operand: a whole scoped buffer of the kernel's own. -/
abbrev scM0 : Memref sig .tc .vmem S1024x64 .f32 := Memref.whole cc0_scratch0

/-- The core's other scoped buffers — region 1's staging buffers and scratch, which region 0 never touches —, each
    at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The region invariant before position `n`: before the first point the class's (every scoped buffer no window
    stages at anything); afterwards the scratch at the accumulator the point before left, the core's other scoped
    buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of pipeline 0 on core `c`: the arrays as the region finds them; after the body at point `t`
    each input's buffer at its block, the output's at `out0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-! ## Region 1: one graph-convolution layer, the adjacency streamed block by block

The grid is 16 row blocks by 8 column blocks, walked row block by row block: point `t` is row block `t / 8`,
column block `t % 8`. The scratch buffer holds the running sum of the products of the row block's adjacency
blocks with the matching blocks of the features; it is reset at column block 0 and read into the output block at
column block 7. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator after the body at position `n`: at a column block 0 the product of the point's two
    blocks added to the zero block, elsewhere added to what the point before left. -/
def acc1 (c : Dev nD) : (n : ℕ) → n < cfg1.N → Vec F S1024x64 .f32
  | 0, h => k1_pay2 (iblk1 V c 0 ⟨0, h⟩) (iblk1 V c 1 ⟨0, h⟩) (k1_pay1 (F := F))
  | n + 1, h =>
    if (n + 1) % 8 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the output window's staging buffer holds after the body at a column block 7 (elsewhere the window is idle
    and this value is not consulted): the residual block plus the leaky rectifier of the accumulator plus the bias. -/
def out1 (c : Dev nD) (t : Fin cfg1.N) : Vec F S1024x64 .f32 :=
  k1_pay3 (acc1 V c t.val t.isLt) (iblk1 V c 2 t) (iblk1 V c 3 t)

/-- The scratch operand: a whole scoped buffer of the kernel's own. -/
abbrev scM1 : Memref sig .tc .vmem S1024x64 .f32 := Memref.whole cc1_scratch0

/-- The core's other scoped buffers — region 0's staging buffers and scratch, which region 1 never touches —, each
    at anything. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f))

/-- The region invariant before position `n`: before the first point the class's (every scoped buffer no window
    stages at anything); afterwards the scratch at the accumulator the point before left, the core's other scoped
    buffers at anything, the generator register at some state. -/
def PhiS1 (c : Dev nD) : (n : ℕ) → n ≤ cfg1.N → sProp 𝕄
  | 0, _ => Pipeline.ΦA spec1 c
  | n + 1, hn => iprop(iprop(rest1 c ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1 fullShare (acc1 V c (n - 1) (by omega))) ∗ (∃ r, prngReg c r)) := by
  cases n with
  | zero => exact absurd rfl hz
  | succ n => rfl

/-- The proof data of pipeline 1 on core `c`: the arrays as the region finds them; after the body at point `t`
    each input's buffer at its block, the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.KI.Chain.lean ====
/-
  The contents of every buffer at each boundary between the host stretches and the two regions of the program.
-/
import proofs.«176179_j3418793968209_1_alg».proof.Proof.KI.Defs
import Idealize.ShloMosaic.Lib.Pipeline.FrameSuffix
import Idealize.ShloMosaic.Lib.Pipeline.RegionsLoop
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core `c`'s buffers at launch. -/
abbrev W0 : Dev nD → Valuation τ sig (Elt F) := fun c b => m ((c : Dev nD), b)
/-- After the first host stretch (region 0's entry): the embedded features and their first projection are there. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry): the second projection is there. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the three closing host stretches: the normalization, the pooling, the readout. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)

end Cert.KernelIdeal.Hand

end
-- ==== Proof.KI.Common.lean ====
/-
  What the runs of the two regions' bodies share: the body's conditions in closed form over the grid, where the
  output window is idle, the current staging memrefs, and what the input windows' buffers hold when the body starts.
-/
import proofs.«176179_j3418793968209_1_alg».proof.Proof.KI.Defs
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-1 whole-block access, however spelt. -/
theorem hz2 : (![0, 0] : Fin 2 → Nat) = fun _ => 0 := funext fun a => by fin_cases a <;> rfl
theorem hz1 : (![0] : Fin 1 → Nat) = fun _ => 0 := funext fun a => by fin_cases a <;> rfl

/-! ## Reading back whole-block stores, over any shape and any payloads -/

section ReadBack

variable {Val : EltTy → Type} [∀ e, Nonempty (Val e)] {S : Shape} {e : EltTy} {sg : RefSig} {κ : Kind} {sp : Space}

/-- What a view reads after a list of writes whose LAST is a store through the whole-shape rectangle at zero offsets
    is that store's payload, whatever the earlier writes and the prior contents were. -/
theorem read_writes_unit_last (v : View sg κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  have hcov : ∀ y, ∃ p ∈ ((⟨Rect.unit off S.size inb, w⟩ : View.Piece Val S e) :: L), y ∈ p.1.set :=
    fun y => ⟨⟨Rect.unit off S.size inb, w⟩, List.Mem.head _, View.mem_set_unit_zero h inb y⟩
  rw [View.read_writes_eq_canon v f _ hcov, View.canon_cons_unit_zero h]

/-- A load through the whole-shape rectangle at zero offsets of a buffer that reads as `X` reads `X`. -/
theorem readAt_unit_whole (v : View sg κ sp S e) (f : v.ty.Contents Val) (X : S.Idx → Val e) (hf : v.read Val f = X)
    {off : Fin S.rank → Nat} (h : off = fun _ => 0) (inb : ∀ a, off a + S.size a ≤ S.size a) :
    v.readAt Val (Rect.unit off S.size inb).toLoadRect f = X := by
  rw [View.readAt_eq_ld, hf, View.ld_unit_zero h]

end ReadBack

-- the TensorCore's buffer contents when a region is entered: every statement below is at this parameter
variable (V : (c : Dev nD) → (b : Ref sig .tc) → Buf (Elt F) ((c : Thread nD τ).loc b))

/-! ## Region 0: the body's two conditions on the column block, and where the output window is idle -/

/-- The first conditional's test, from the grid coordinates: the column block is 0. -/
abbrev cond0_0 (i : grid0.Coords) : Prop := (Scalar.cmpi .ne (Scalar.extui (Scalar.cmpi .eq (BitVec.ofNat 32 (i 1).val) 0#32)) 0#32) = 1#1
/-- It holds at the points whose position is 0 modulo 8 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the column block is the last one. -/
abbrev cond0_1 (i : grid0.Coords) : Prop := k0_cond2 i = 1#1
/-- It holds at the points whose position is 7 modulo 8 — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-- Where the second test fails the output window is idle, -/
theorem idleAt0_4 : ∀ t : Fin cfg0.N, ¬cond0_1 (grid0.coords t) → cfg0.idle 4 (grid0.coords t) = true := by decide +kernel
/-- and its block is not written back; -/
theorem noFlush0_4 : ∀ t : Fin cfg0.N, ¬cond0_1 (grid0.coords t) → (cfg0.win 4).flush t = false := by decide +kernel
/-- where it holds the window is live. -/
theorem liveAt0_4 : ∀ t : Fin cfg0.N, cond0_1 (grid0.coords t) → cfg0.idle 4 (grid0.coords t) = false := by decide +kernel

/-- Each window's current staging memref at point `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)

/-- Each input window's current staging buffer holds its block at every point, fetched there or not: where it is
    not fetched the block index has not moved, and the body leaves the inputs in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0 V c 0]; try rfl) t d).trans
    (by unfold Dat.fetched Dat.blockOf iblk0; rw [A_eq0 V c 0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0 V c 1]; try rfl) t d).trans
    (by unfold Dat.fetched Dat.blockOf iblk0; rw [A_eq0 V c 1]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0 V c 2]; try rfl) t d).trans
    (by unfold Dat.fetched Dat.blockOf iblk0; rw [A_eq0 V c 2]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0 V c 3]; try rfl) t d).trans
    (by unfold Dat.fetched Dat.blockOf iblk0; rw [A_eq0 V c 3]; try rfl)

/-! ## Region 1: the body's two conditions on the column block, and where the output window is idle -/

/-- The first conditional's test, from the grid coordinates: the column block is 0. -/
abbrev cond1_0 (i : grid1.Coords) : Prop := (Scalar.cmpi .ne (Scalar.extui (Scalar.cmpi .eq (BitVec.ofNat 32 (i 1).val) 0#32)) 0#32) = 1#1
/-- It holds at the points whose position is 0 modulo 8 — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's test: the column block is the last one. -/
abbrev cond1_1 (i : grid1.Coords) : Prop := k1_cond2 i = 1#1
/-- It holds at the points whose position is 7 modulo 8 — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-- Where the second test fails the output window is idle, -/
theorem idleAt1_4 : ∀ t : Fin cfg1.N, ¬cond1_1 (grid1.coords t) → cfg1.idle 4 (grid1.coords t) = true := by decide +kernel
/-- and its block is not written back; -/
theorem noFlush1_4 : ∀ t : Fin cfg1.N, ¬cond1_1 (grid1.coords t) → (cfg1.win 4).flush t = false := by decide +kernel
/-- where it holds the window is live. -/
theorem liveAt1_4 : ∀ t : Fin cfg1.N, cond1_1 (grid1.coords t) → cfg1.idle 4 (grid1.coords t) = false := by decide +kernel

/-- Each window's current staging memref at point `t`, as the pipeline passes it to the body, and its wholeness. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)

/-- Each input window's current staging buffer holds its block at every point, fetched there or not: where it is
    not fetched the block index has not moved, and the body leaves the inputs in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1 V c 3]; try rfl) t d).trans
    (by unfold Dat.fetched Dat.blockOf iblk1; rw [A_eq1 V c 3]; try rfl)

end Cert.KernelIdeal.Hand

end
-- ==== Proof.KI.Run0A.lean ====
/-
  Region 0's body run whole in the control case where the column block is the first: the scratch is reset, then the product added.
-/
import proofs.«176179_j3418793968209_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the first (the first conditional taken, the second not): on whole
    staging memrefs holding the four input blocks, the output's buffer at `xi4` and the scratch at anything, it runs
    to the continuation with the inputs and the output's buffer as they were and the scratch at the product of the
    two blocks added to the zero block — the scratch is stored whole twice, and the second store's payload reads back
    the first's. -/
theorem kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond0_0 i) (hc1 : ¬cond0_1 i)
    (x0 : Vec F S1024x2048 .f32) (x1 : Vec F S2048x64 .f32) (x2 : Vec F S64 .f32) (x3 : Vec F S1024x64 .f32) (xi4 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 x0 x1 (k0_pay1 (F := F)))) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  sl_unfold_words
  refine (read_writes_unit_last (Val := Elt F) arg7.view fs hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have e8 := View.readCov_unit_zero (Val := Elt F) (S := S1024x64) arg7.view hz2 inb_S1024x64_S1024x64_0_0 (k0_pay1 (F := F))
  rw [e0, e1, e8]

end Cert.KernelIdeal.Hand

end
-- ==== Proof.KI.Run0B.lean ====
/-
  Region 0's body run whole in the control case where the column block is neither the first nor the last: the product added to the carried scratch.
-/
import proofs.«176179_j3418793968209_1_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is neither the first nor the last (neither conditional taken): on whole
    staging memrefs holding the four input blocks, the output's buffer at `xi4` and the scratch at `xs`, it runs to
    the continuation with the inputs and the output's buffer as they were and the scratch at the product of the two
    blocks added to `xs` — its one store covers the scratch, and its payload's loads read whole buffers. -/
theorem kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : ¬cond0_1 i)
    (x0 : Vec F S1024x2048 .f32) (x1 : Vec F S2048x64 .f32) (x2 : Vec F S64 .f32) (x3 : Vec F S1024x64 .f32) (xi4 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k0_pay2 x0 x1 xs)) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.KernelIdeal.Hand

end
-- ==== Proof.KI.Run0C.lean ====
/-
  Region 0's body run whole in the control case where the column block is the last: the product added, then the output block computed from the scratch.
-/
import proofs.«176179_j3418793968209_1_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the last (the first conditional not taken, the second taken): on whole
    staging memrefs holding the four input blocks, the output's buffer at anything and the scratch at `xs`, it runs
    to the continuation with the inputs as they were, the scratch at the product of the two blocks added to `xs`, and
    the output's buffer at the residual block plus the rectifier of that sum plus the bias — the second conditional
    reads back the scratch the body has just stored. -/
theorem kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond0_0 i) (hc1 : cond0_1 i)
    (x0 : Vec F S1024x2048 .f32) (x1 : Vec F S2048x64 .f32) (x2 : Vec F S64 .f32) (x3 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay2 x0 x1 xs) x2 x3) ∗ owns (c : Thread nD τ) arg7 fullShare (k0_pay2 x0 x1 xs)) -∗ K ⟨⟩))
      ⊢ wp frame (wpE (defs₀ (F := F)) Variants.none c none) E (cc0__gc_kernel i arg2 harg2 arg3 harg3 arg4 harg4 arg5 harg5 arg6 harg6 arg7 harg7) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro
    sl_unfold_words
    refine (read_writes_unit_last (Val := Elt F) arg6.view f4 hz2 inb_S1024x64_S1024x64_0_0 _ _).trans ?_
    have e0 := readAt_unit_whole (Val := Elt F) arg2.view _ x0 hf0 hz2 inb_S1024x2048_S1024x2048_0_0
    have e1 := readAt_unit_whole (Val := Elt F) arg3.view _ x1 hf1 hz2 inb_S2048x64_S2048x64_0_0
    have e2 := readAt_unit_whole (Val := Elt F) arg4.view _ x2 hf2 hz1 inb_S64_S64_0
    have e3 := readAt_unit_whole (Val := Elt F) arg5.view _ x3 hf3 hz2 inb_S1024x64_S1024x64_0_0
    have es := readAt_unit_whole (Val := Elt F) arg7.view _ xs hfs hz2 inb_S1024x64_S1024x64_0_0
    have e17 := View.readCov_unit_zero (Val := Elt F) (S := S1024x64) arg7.view hz2 inb_S1024x64_S1024x64_0_0 (k0_pay2 x0 x1 xs)
    rw [e0, e1, es, e2, e3, e17]
  iexists _; isplitr
  swap; · iexact HS
  ipureintro
  sl_unfold_words
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.KernelIdeal.Hand

end
-- ==== Proof.KI.Run1A.lean ====
/-
  Region 1's body run whole in the control case where the column block is the first: the scratch is reset, then the product added.
-/
import proofs.«176179_j3418793968209_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the first (the first conditional taken, the second not): on whole
    staging memrefs holding the four input blocks, the output's buffer at `xi4` and the scratch at anything, it runs
    to the continuation with the inputs and the output's buffer as they were and the scratch at the product of the
    two blocks added to the zero block — the scratch is stored whole twice, and the second store's payload reads back
    the first's. -/
theorem kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x2048 .f32) (x1 : Vec F S2048x64 .f32) (x2 : Vec F S64 .f32) (x3 : Vec F S1024x64 .f32) (xi4 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 (k1_pay1 (F := F)))) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  sl_unfold_words
  refine (read_writes_unit_last (Val := Elt F) arg7.view fs hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have e8 := View.readCov_unit_zero (Val := Elt F) (S := S1024x64) arg7.view hz2 inb_S1024x64_S1024x64_0_0 (k1_pay1 (F := F))
  rw [e0, e1, e8]

end Cert.KernelIdeal.Hand

end
-- ==== Proof.KI.Run1B.lean ====
/-
  Region 1's body run whole in the control case where the column block is neither the first nor the last: the product added to the carried scratch.
-/
import proofs.«176179_j3418793968209_1_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is neither the first nor the last (neither conditional taken): on whole
    staging memrefs holding the four input blocks, the output's buffer at `xi4` and the scratch at `xs`, it runs to
    the continuation with the inputs and the output's buffer as they were and the scratch at the product of the two
    blocks added to `xs` — its one store covers the scratch, and its payload's loads read whole buffers. -/
theorem kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x2048 .f32) (x1 : Vec F S2048x64 .f32) (x2 : Vec F S64 .f32) (x3 : Vec F S1024x64 .f32) (xi4 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay2 x0 x1 xs)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap; · iexact HS
  ipureintro
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.KernelIdeal.Hand

end
-- ==== Proof.KI.Run1C.lean ====
/-
  Region 1's body run whole in the control case where the column block is the last: the product added, then the output block computed from the scratch.
-/
import proofs.«176179_j3418793968209_1_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point whose column block is the last (the first conditional not taken, the second taken): on whole
    staging memrefs holding the four input blocks, the output's buffer at anything and the scratch at `xs`, it runs
    to the continuation with the inputs as they were, the scratch at the product of the two blocks added to `xs`, and
    the output's buffer at the residual block plus the rectifier of that sum plus the bias — the second conditional
    reads back the scratch the body has just stored. -/
theorem kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S64 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x2048 .f32) (x1 : Vec F S2048x64 .f32) (x2 : Vec F S64 .f32) (x3 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay3 (k1_pay2 x0 x1 xs) x2 x3) ∗ owns (c : Thread nD τ) arg7 fullShare (k1_pay2 x0 x1 xs)) -∗ K ⟨⟩))
      ⊢ wp frame (wpE (defs₀ (F := F)) Variants.none c none) E (cc1__gc_kernel i arg2 harg2 arg3 harg3 arg4 harg4 arg5 harg5 arg6 harg6 arg7 harg7) K := by
  simp only [cc1__gc_kernel_eq_skeleton]; unfold cc1__gc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro
    sl_unfold_words
    refine (read_writes_unit_last (Val := Elt F) arg6.view f4 hz2 inb_S1024x64_S1024x64_0_0 _ _).trans ?_
    have e0 := readAt_unit_whole (Val := Elt F) arg2.view _ x0 hf0 hz2 inb_S1024x2048_S1024x2048_0_0
    have e1 := readAt_unit_whole (Val := Elt F) arg3.view _ x1 hf1 hz2 inb_S2048x64_S2048x64_0_0
    have e2 := readAt_unit_whole (Val := Elt F) arg4.view _ x2 hf2 hz1 inb_S64_S64_0
    have e3 := readAt_unit_whole (Val := Elt F) arg5.view _ x3 hf3 hz2 inb_S1024x64_S1024x64_0_0
    have es := readAt_unit_whole (Val := Elt F) arg7.view _ xs hfs hz2 inb_S1024x64_S1024x64_0_0
    have e17 := View.readCov_unit_zero (Val := Elt F) (S := S1024x64) arg7.view hz2 inb_S1024x64_S1024x64_0_0 (k1_pay2 x0 x1 xs)
    rw [e0, e1, es, e2, e3, e17]
  iexists _; isplitr
  swap; · iexact HS
  ipureintro
  sl_unfold_words
  refine (read_writes_unit_last (Val := Elt F) arg7.view (harg7.unread xs) hz2 inb_S1024x64_S1024x64_0_0 _ _).trans ?_
  have e0 := readAt_unit_whole (Val := Elt F) arg2.view _ x0 hf0 hz2 inb_S1024x2048_S1024x2048_0_0
  have e1 := readAt_unit_whole (Val := Elt F) arg3.view _ x1 hf1 hz2 inb_S2048x64_S2048x64_0_0
  have es := readAt_unit_whole (Val := Elt F) arg7.view _ xs hfs hz2 inb_S1024x64_S1024x64_0_0
  rw [e0, e1, es]

end Cert.KernelIdeal.Hand

end
-- ==== Proof.KI.Body.lean ====
/-
  The body obligations of the two regions.
-/
import proofs.«176179_j3418793968209_1_alg».proof.Proof.KI.Run0C
import proofs.«176179_j3418793968209_1_alg».proof.Proof.KI.Run1C
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every statement below is at this parameter
variable (V : (c : Dev nD) → (b : Ref sig .tc) → Buf (Elt F) ((c : Thread nD τ).loc b))

/-! ## Region 0 -/

/-- The inputs are never idle. -/
theorem liveIn0_0 : ∀ t : Fin cfg0.N, cfg0.idle 0 (grid0.coords t) = false := fun _ => rfl
theorem liveIn0_1 : ∀ t : Fin cfg0.N, cfg0.idle 1 (grid0.coords t) = false := fun _ => rfl
theorem liveIn0_2 : ∀ t : Fin cfg0.N, cfg0.idle 2 (grid0.coords t) = false := fun _ => rfl
theorem liveIn0_3 : ∀ t : Fin cfg0.N, cfg0.idle 3 (grid0.coords t) = false := fun _ => rfl

/-- What the launch hands the region, in the shape the invariant has after the first point: the scratch as a memref
    owned at some contents, the core's other scoped buffers, the generator register. -/
theorem PhiA0_eq (c : Dev nD) :
    (Pipeline.ΦA spec0 c : sProp 𝕄) = iprop(iprop((∃ d, owns (c : Thread nD τ) scM0 fullShare d) ∗ rest0 c) ∗ (∃ r, prngReg c r)) := by
  unfold Pipeline.ΦA; rw [scopedRest0_eq]; unfold rest0; simp only [scM0, owns_whole]; try rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the column block says which control case the
    point is in; the invariant hands the body the scratch at what the point before left (at anything at the first
    point), and takes it back at this point's accumulator; the output window is idle except at the last column
    block, where its buffer is left at the output block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveIn0_0 t], after0_0]
  rw [show (dat0 V c).leavesExact 1 t = owns (c : Thread nD τ) (ms0_1 t) fullShare ((dat0 V c).after 1 t) from by
    unfold Dat.leavesExact; rw [liveIn0_1 t], after0_1]
  rw [show (dat0 V c).leavesExact 2 t = owns (c : Thread nD τ) (ms0_2 t) fullShare ((dat0 V c).after 2 t) from by
    unfold Dat.leavesExact; rw [liveIn0_2 t], after0_2]
  rw [show (dat0 V c).leavesExact 3 t = owns (c : Thread nD τ) (ms0_3 t) fullShare ((dat0 V c).after 3 t) from by
    unfold Dat.leavesExact; rw [liveIn0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by omega)
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      unfold out0
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t (fun h => h1 ((hcond0_1 t).mp h))) (noFlush0_4 t (fun h => h1 ((hcond0_1 t).mp h)))]
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands region 0 is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]
    · iexists _; iexact HS
    iexact Hr
  iexact Hg

/-! ## Region 1 -/

/-- The inputs are never idle. -/
theorem liveIn1_0 : ∀ t : Fin cfg1.N, cfg1.idle 0 (grid1.coords t) = false := fun _ => rfl
theorem liveIn1_1 : ∀ t : Fin cfg1.N, cfg1.idle 1 (grid1.coords t) = false := fun _ => rfl
theorem liveIn1_2 : ∀ t : Fin cfg1.N, cfg1.idle 2 (grid1.coords t) = false := fun _ => rfl
theorem liveIn1_3 : ∀ t : Fin cfg1.N, cfg1.idle 3 (grid1.coords t) = false := fun _ => rfl

/-- What the launch hands the region gives the scratch as a memref owned at some contents, the core's other scoped
    buffers and the generator register (the scratch is the last of the scoped buffers: re-associated), -/
theorem PhiA1_in (c : Dev nD) :
    (Pipeline.ΦA spec1 c : sProp 𝕄) ⊢ iprop(iprop(rest1 c ∗ (∃ d, owns (c : Thread nD τ) scM1 fullShare d)) ∗ (∃ r, prngReg c r)) := by
  unfold Pipeline.ΦA; rw [scopedRest1_eq]; unfold rest1; simp only [scM1, owns_whole]
  iintro ⟨⟨Q0, Q1, Q2, Q3, Q4, Q5, Q6, Q7, Q8, Q9, HS⟩, Hg⟩
  isplitr [Hg]
  · isplitr [HS]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      iexact Q9
    iexact HS
  iexact Hg

/-- and back. -/
theorem PhiA1_out (c : Dev nD) :
    iprop(iprop(rest1 c ∗ (∃ d, owns (c : Thread nD τ) scM1 fullShare d)) ∗ (∃ r, prngReg c r)) ⊢ (Pipeline.ΦA spec1 c : sProp 𝕄) := by
  unfold Pipeline.ΦA; rw [scopedRest1_eq]; unfold rest1; simp only [scM1, owns_whole]
  iintro ⟨⟨⟨Q0, Q1, Q2, Q3, Q4, Q5, Q6, Q7, Q8, Q9⟩, HS⟩, Hg⟩
  isplitr [Hg]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    iexact HS
  iexact Hg

/-- What the launch hands the region, in the shape the invariant has after the first point. -/
theorem PhiA1_eq (c : Dev nD) :
    (Pipeline.ΦA spec1 c : sProp 𝕄) = iprop(iprop(rest1 c ∗ (∃ d, owns (c : Thread nD τ) scM1 fullShare d)) ∗ (∃ r, prngReg c r)) :=
  Idealize.SL.BI.Entails.antisymm (PhiA1_in c) (PhiA1_out c)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the column block says which control case the
    point is in; the invariant hands the body the scratch at what the point before left (at anything at the first
    point), and takes it back at this point's accumulator; the output window is idle except at the last column
    block, where its buffer is left at the output block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveIn1_0 t], after1_0]
  rw [show (dat1 V c).leavesExact 1 t = owns (c : Thread nD τ) (ms1_1 t) fullShare ((dat1 V c).after 1 t) from by
    unfold Dat.leavesExact; rw [liveIn1_1 t], after1_1]
  rw [show (dat1 V c).leavesExact 2 t = owns (c : Thread nD τ) (ms1_2 t) fullShare ((dat1 V c).after 2 t) from by
    unfold Dat.leavesExact; rw [liveIn1_2 t], after1_2]
  rw [show (dat1 V c).leavesExact 3 t = owns (c : Thread nD τ) (ms1_3 t) fullShare ((dat1 V c).after 3 t) from by
    unfold Dat.leavesExact; rw [liveIn1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [acc1_first V c t h0]
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by omega)
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      unfold out1
      rw [acc1_next V c t h0]
      rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [acc1_next V c t h0]
      rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands region 1 is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Hr, HS⟩, Hg⟩
  isplitl [HS Hr]
  · isplitl [Hr]
    · iexact Hr
    iexists _; iexact HS
  iexact Hg

end Cert.KernelIdeal.Hand

end
-- ==== Proof.KI.Frame.lean ====
/-
  The whole run of the program, assembled from its seven segments: three stretches of host operations around and
  after the two graph-convolution regions. Each segment is entered from every unscoped buffer held at the contents
  the segment before it left; the last contents are read against the final memory.
-/
import proofs.«176179_j3418793968209_1_alg».proof.Proof.KI.Chain
import proofs.«176179_j3418793968209_1_alg».proof.Proof.KI.Body
import proofs.«176179_j3418793968209_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := StableHlo.held (c : Thread nD τ) (Pipeline.ucRefs τ sig) (W7 m c)

set_option backward.isDefEq.respectTransparency.types false in
/-- REGION 0 over the thread state: entered from every unscoped buffer at `W1`, left at `W2`. Its arrays
    are split out of the unscoped buffers and put back at the exit contents; the generator register goes into the
    region's invariant and comes back out of it; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays
    are split out of the unscoped buffers and put back at the exit contents; the generator register goes into the
    region's invariant and comes back out of it; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine BIBase.Entails.trans (hout1 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)) ]

/-- What the last host stretch leaves is the last thread state beside the core owing nothing: the generator register
    is let go. -/
theorem last_post (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, -, HO⟩
  isplitl [Hh]; · iexact Hh
  iexact HO

set_option backward.isDefEq.respectTransparency.types false in
/-- THE RUN: from any memory with zero counters, every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold Tₙ StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-! ## The arguments end as launched

No host operation writes an argument, and a region reads an argument through an input window or not at all, so the
fold of the boundary contents at an argument's buffer walks back to the launch memory. -/

/-- A reference none of the three closing stretches writes holds after them what region 1 left in it. -/
theorem W7_eq_W4 (c : Dev nD) (r : Ref sig .tc) (h2 : r ∉ hostOps2_2_W) (h1 : r ∉ hostOps2_1_W) (h0 : r ∉ hostOps2_W) :
    W7 m c (Proc.devRef .tc r) = W4 m c (Proc.devRef .tc r) :=
  (StableHlo.after_of_writes_sub hostOps2_2 _ hostOps2_2_writes h2).trans <|
    (StableHlo.after_of_writes_sub hostOps2_1 _ hostOps2_1_writes h1).trans <|
      StableHlo.after_of_writes_sub hostOps2 _ hostOps2_writes h0
/-- A reference the stretch between the regions does not write holds at region 1's entry what region 0 left in it. -/
theorem W3_eq_W2 (c : Dev nD) (r : Ref sig .tc) (h : r ∉ hostOps1_W) :
    W3 m c (Proc.devRef .tc r) = W2 m c (Proc.devRef .tc r) :=
  StableHlo.after_of_writes_sub hostOps1 _ hostOps1_writes h
/-- A reference the first stretch does not write holds at region 0's entry its launch contents. -/
theorem W1_eq_m (c : Dev nD) (r : Ref sig .tc) (h : r ∉ hostOps0_W) :
    W1 m c (Proc.devRef .tc r) = m ((c : Thread nD τ).loc r) :=
  (StableHlo.after_of_writes_sub hostOps0 _ hostOps0_writes h).trans rfl
/-- An input window's array leaves region 0 as it entered it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An input window's array leaves region 1 as it entered it. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
/-- A reference no stretch writes and no region stages reaches the end as launched. -/
theorem W7_plain (c : Dev nD) (r : Ref sig .tc) (h22 : r ∉ hostOps2_2_W) (h21 : r ∉ hostOps2_1_W) (h20 : r ∉ hostOps2_W)
    (hr1 : ∀ w, Pipeline.arrRef spec1 w ≠ r) (h1 : r ∉ hostOps1_W) (hr0 : ∀ w, Pipeline.arrRef spec0 w ≠ r) (h0 : r ∉ hostOps0_W) :
    W7 m c (Proc.devRef .tc r) = m ((c : Thread nD τ).loc r) :=
  (W7_eq_W4 m c r h22 h21 h20).trans <| (W4_of_ne m c r hr1).trans <| (W3_eq_W2 m c r h1).trans <|
    (W2_of_ne m c r hr0).trans (W1_eq_m m c r h0)

theorem W7_main_arg0 (c : Dev nD) : W7 m c (Proc.devRef .tc main_arg0) = m ((c : Thread nD τ).loc main_arg0) :=
  W7_plain m c main_arg0 (by decide) (by decide) (by decide) (by decide) (by decide) (by decide) (by decide)
/-- `main_arg1`, the adjacency: window 0 of both regions, an input of each. -/
theorem W7_main_arg1 (c : Dev nD) : W7 m c (Proc.devRef .tc main_arg1) = m ((c : Thread nD τ).loc main_arg1) :=
  (W7_eq_W4 m c main_arg1 (by decide) (by decide) (by decide)).trans <| (W4_in m c 0 rfl).trans <|
    (W3_eq_W2 m c main_arg1 (by decide)).trans <| (W2_in m c 0 rfl).trans (W1_eq_m m c main_arg1 (by decide))
theorem W7_main_arg2 (c : Dev nD) : W7 m c (Proc.devRef .tc main_arg2) = m ((c : Thread nD τ).loc main_arg2) :=
  W7_plain m c main_arg2 (by decide) (by decide) (by decide) (by decide) (by decide) (by decide) (by decide)
theorem W7_main_arg3 (c : Dev nD) : W7 m c (Proc.devRef .tc main_arg3) = m ((c : Thread nD τ).loc main_arg3) :=
  W7_plain m c main_arg3 (by decide) (by decide) (by decide) (by decide) (by decide) (by decide) (by decide)
theorem W7_main_arg4 (c : Dev nD) : W7 m c (Proc.devRef .tc main_arg4) = m ((c : Thread nD τ).loc main_arg4) :=
  W7_plain m c main_arg4 (by decide) (by decide) (by decide) (by decide) (by decide) (by decide) (by decide)
theorem W7_main_arg5 (c : Dev nD) : W7 m c (Proc.devRef .tc main_arg5) = m ((c : Thread nD τ).loc main_arg5) :=
  W7_plain m c main_arg5 (by decide) (by decide) (by decide) (by decide) (by decide) (by decide) (by decide)
theorem W7_main_arg6 (c : Dev nD) : W7 m c (Proc.devRef .tc main_arg6) = m ((c : Thread nD τ).loc main_arg6) :=
  W7_plain m c main_arg6 (by decide) (by decide) (by decide) (by decide) (by decide) (by decide) (by decide)
theorem W7_main_arg7 (c : Dev nD) : W7 m c (Proc.devRef .tc main_arg7) = m ((c : Thread nD τ).loc main_arg7) :=
  W7_plain m c main_arg7 (by decide) (by decide) (by decide) (by decide) (by decide) (by decide) (by decide)
/-- `main_arg8`, the first layer's bias: window 2 of region 0, an input. -/
theorem W7_main_arg8 (c : Dev nD) : W7 m c (Proc.devRef .tc main_arg8) = m ((c : Thread nD τ).loc main_arg8) :=
  (W7_eq_W4 m c main_arg8 (by decide) (by decide) (by decide)).trans <| (W4_of_ne m c main_arg8 (by decide)).trans <|
    (W3_eq_W2 m c main_arg8 (by decide)).trans <| (W2_in m c 2 rfl).trans (W1_eq_m m c main_arg8 (by decide))
theorem W7_main_arg9 (c : Dev nD) : W7 m c (Proc.devRef .tc main_arg9) = m ((c : Thread nD τ).loc main_arg9) :=
  W7_plain m c main_arg9 (by decide) (by decide) (by decide) (by decide) (by decide) (by decide) (by decide)
/-- `main_arg10`, the second layer's bias: window 2 of region 1, an input. -/
theorem W7_main_arg10 (c : Dev nD) : W7 m c (Proc.devRef .tc main_arg10) = m ((c : Thread nD τ).loc main_arg10) :=
  (W7_eq_W4 m c main_arg10 (by decide) (by decide) (by decide)).trans <| (W4_in m c 2 rfl).trans <|
    (W3_eq_W2 m c main_arg10 (by decide)).trans <| (W2_of_ne m c main_arg10 (by decide)).trans (W1_eq_m m c main_arg10 (by decide))
theorem W7_main_arg11 (c : Dev nD) : W7 m c (Proc.devRef .tc main_arg11) = m ((c : Thread nD τ).loc main_arg11) :=
  W7_plain m c main_arg11 (by decide) (by decide) (by decide) (by decide) (by decide) (by decide) (by decide)
theorem W7_main_arg12 (c : Dev nD) : W7 m c (Proc.devRef .tc main_arg12) = m ((c : Thread nD τ).loc main_arg12) :=
  W7_plain m c main_arg12 (by decide) (by decide) (by decide) (by decide) (by decide) (by decide) (by decide)
theorem W7_main_arg13 (c : Dev nD) : W7 m c (Proc.devRef .tc main_arg13) = m ((c : Thread nD τ).loc main_arg13) :=
  W7_plain m c main_arg13 (by decide) (by decide) (by decide) (by decide) (by decide) (by decide) (by decide)
theorem W7_main_arg14 (c : Dev nD) : W7 m c (Proc.devRef .tc main_arg14) = m ((c : Thread nD τ).loc main_arg14) :=
  W7_plain m c main_arg14 (by decide) (by decide) (by decide) (by decide) (by decide) (by decide) (by decide)
theorem W7_main_arg15 (c : Dev nD) : W7 m c (Proc.devRef .tc main_arg15) = m ((c : Thread nD τ).loc main_arg15) :=
  W7_plain m c main_arg15 (by decide) (by decide) (by decide) (by decide) (by decide) (by decide) (by decide)
theorem W7_main_arg16 (c : Dev nD) : W7 m c (Proc.devRef .tc main_arg16) = m ((c : Thread nD τ).loc main_arg16) :=
  W7_plain m c main_arg16 (by decide) (by decide) (by decide) (by decide) (by decide) (by decide) (by decide)

/-- THE FRAME: from any memory with zero counters, every weakly fair execution of the program on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c),
    (h c _ (mem_uc main_arg12 (by decide))).trans (W7_main_arg12 m c),
    (h c _ (mem_uc main_arg13 (by decide))).trans (W7_main_arg13 m c),
    (h c _ (mem_uc main_arg14 (by decide))).trans (W7_main_arg14 m c),
    (h c _ (mem_uc main_arg15 (by decide))).trans (W7_main_arg15 m c),
    (h c _ (mem_uc main_arg16 (by decide))).trans (W7_main_arg16 m c)⟩) (run_all m ρ)

end Cert.KernelIdeal.Hand

end
-- ==== Proof.Ref.Ops.lean ====
/-
  The reference program as a list of its host operations, the calls of its outlined functions unfolded at their call
  sites over each call's own buffers, cut in five consecutive stretches: the embedding, the first layer, the second
  layer, everything up to the readout's first affine map, and the rest. For each stretch: the buffers it writes, that
  it touches TensorCore references only, and that a buffer it does not write keeps its contents through it.
-/
import proofs.«176179_j3418793968209_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is in a list writes inside that list. -/
theorem w_sub {op : HloOp τ sig (Elt F)} (y : Ref sig .tc) {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The contents after two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The embedding: the features times the embedding weights, plus the bias on every row (4 operations). -/
abbrev opsA : List (HloOp τ sig (Elt F)) :=
  [ StableHlo.binary main_arg0 main_arg5 main_v0 ((fun l r => Host.dotGeneral dot_S16384x92_S92x64_S16384x64_1_0_0_1_n_n none l r) : (⟨S16384x92, .f32⟩ : BufTy).Contents (Elt F) → (⟨S92x64, .f32⟩ : BufTy).Contents (Elt F) → (⟨S16384x64, .f32⟩ : BufTy).Contents (Elt F)),
    StableHlo.unary main_arg6 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S16384x64 ![0, 1] bcast_S1x64_S16384x64_0_1 : (⟨S1x64, .f32⟩ : BufTy).Contents (Elt F) → (⟨S16384x64, .f32⟩ : BufTy).Contents (Elt F)),
    StableHlo.binary main_v0 main_v2 main_v3 (addf : (⟨S16384x64, .f32⟩ : BufTy).Contents (Elt F) → (⟨S16384x64, .f32⟩ : BufTy).Contents (Elt F) → (⟨S16384x64, .f32⟩ : BufTy).Contents (Elt F)) ]

/-- The buffers the operations of `opsA` write. -/
abbrev WA : List (Ref sig .tc) := [main_v0, main_v1, main_v2, main_v3]

theorem opsA_sub : (opsA : List (HloOp τ sig (Elt F))).Forall fun op => op.bufs ⊆ tcRefs τ sig :=
  ⟨binary_bufs_sub .., unary_bufs_sub .., unary_bufs_sub .., binary_bufs_sub ..⟩

theorem opsA_fresh : (opsA : List (HloOp τ sig (Elt F))).Forall fun op => op.fresh = ∅ :=
  ⟨rfl, rfl, rfl, rfl⟩

theorem opsA_writes : (opsA : List (HloOp τ sig (Elt F))).Forall fun op =>
    op.writes ⊆ (WA.map (Proc.devRef (τ := τ) .tc)).toFinset :=
  ⟨w_sub main_v0 rfl (by decide),
   w_sub main_v1 rfl (by decide),
   w_sub main_v2 rfl (by decide),
   w_sub main_v3 rfl (by decide)⟩

/-- A buffer that `opsA` does not write keeps its contents through it. -/
theorem keepA (V : Valuation τ sig (Elt F)) (r : Ref sig .tc) (h : r ∉ WA) :
    after opsA V (Proc.devRef .tc r) = V (Proc.devRef .tc r) :=
  after_of_writes_sub opsA V opsA_writes h

/-- The first layer (14 operations): the projection, the product with the adjacency, the bias, the slope, the leaky rectifier's seven operations over its call's buffers, the residual sum. -/
abbrev opsB : List (HloOp τ sig (Elt F)) :=
  [ StableHlo.binary main_v3 main_arg7 main_v4 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.binary main_arg1 main_v4 main_v5 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    StableHlo.unary main_arg8 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S16384x64 ![0, 1] bcast_S1x64_S16384x64_0_1 : (⟨S1x64, .f32⟩ : BufTy).Contents (Elt F) → (⟨S16384x64, .f32⟩ : BufTy).Contents (Elt F)),
    StableHlo.binary main_v5 main_v7 main_v8 (addf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S16384x64 ![] bcast_S_S16384x64),
    StableHlo.TRef.binary (.of main_v8 : StableHlo.TRef sig ⟨S16384x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S16384x64 ![] bcast_S_S16384x64),
    StableHlo.TRef.binary main_call0.v3 (.of main_v8 : StableHlo.TRef sig ⟨S16384x64, .f32⟩) main_call0.v4 mulf,
    StableHlo.TRef.ternary main_call0.v1 (.of main_v8 : StableHlo.TRef sig ⟨S16384x64, .f32⟩) main_call0.v4 main_call0.call0.v0 select,
    StableHlo.binary main_v3 main_v9 main_v10 (addf : (⟨S16384x64, .f32⟩ : BufTy).Contents (Elt F) → (⟨S16384x64, .f32⟩ : BufTy).Contents (Elt F) → (⟨S16384x64, .f32⟩ : BufTy).Contents (Elt F)) ]

/-- The buffers the operations of `opsB` write. -/
abbrev WB : List (Ref sig .tc) := [main_v4, main_v5, main_v6, main_v7, main_v8, main_cst, main_call0_cst, main_call0_v0, main_call0_v1, main_call0_v2, main_call0_v3, main_call0_v4, main_v9, main_v10]

theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl⟩

theorem opsB_writes : (opsB : List (HloOp τ sig (Elt F))).Forall fun op =>
    op.writes ⊆ (WB.map (Proc.devRef (τ := τ) .tc)).toFinset :=
  ⟨w_sub main_v4 rfl (by decide),
   w_sub main_v5 rfl (by decide),
   w_sub main_v6 rfl (by decide),
   w_sub main_v7 rfl (by decide),
   w_sub main_v8 rfl (by decide),
   w_sub main_cst rfl (by decide),
   w_sub main_call0_cst rfl (by decide),
   w_sub main_call0_v0 rfl (by decide),
   w_sub main_call0_v1 rfl (by decide),
   w_sub main_call0_v2 rfl (by decide),
   w_sub main_call0_v3 rfl (by decide),
   w_sub main_call0_v4 rfl (by decide),
   w_sub main_v9 rfl (by decide),
   w_sub main_v10 rfl (by decide)⟩

/-- A buffer that `opsB` does not write keeps its contents through it. -/
theorem keepB (V : Valuation τ sig (Elt F)) (r : Ref sig .tc) (h : r ∉ WB) :
    after opsB V (Proc.devRef .tc r) = V (Proc.devRef .tc r) :=
  after_of_writes_sub opsB V opsB_writes h

/-- The second layer (14 operations), as the first over its own buffers. -/
abbrev opsC : List (HloOp τ sig (Elt F)) :=
  [ StableHlo.binary main_v10 main_arg9 main_v11 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.binary main_arg1 main_v11 main_v12 ((fun l r => Host.dotGeneral dot_S16384x16384_S16384x64_S16384x64_1_0_0_1_n_n none l r) : (⟨S16384x16384, .f32⟩ : BufTy).Contents (Elt F) → (⟨S16384x64, .f32⟩ : BufTy).Contents (Elt F) → (⟨S16384x64, .f32⟩ : BufTy).Contents (Elt F)),
    StableHlo.unary main_arg10 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S16384x64 ![0, 1] bcast_S1x64_S16384x64_0_1 : (⟨S1x64, .f32⟩ : BufTy).Contents (Elt F) → (⟨S16384x64, .f32⟩ : BufTy).Contents (Elt F)),
    StableHlo.binary main_v12 main_v14 main_v15 (addf : (⟨S16384x64, .f32⟩ : BufTy).Contents (Elt F) → (⟨S16384x64, .f32⟩ : BufTy).Contents (Elt F) → (⟨S16384x64, .f32⟩ : BufTy).Contents (Elt F)),
    StableHlo.nullary main_cst_0 (constant S_ .f32 0x3C23D70A#32),
    StableHlo.TRef.nullary main_call1.cst (constant S_ .f32 0x00000000#32),
    StableHlo.TRef.unary main_call1.cst main_call1.v0 (broadcastInDim S16384x64 ![] bcast_S_S16384x64),
    StableHlo.TRef.binary (.of main_v15 : StableHlo.TRef sig ⟨S16384x64, .f32⟩) main_call1.v0 main_call1.v1 (cmpf .oge),
    StableHlo.TRef.unary (.of main_cst_0 : StableHlo.TRef sig ⟨S_, .f32⟩) main_call1.v2 id,
    StableHlo.TRef.unary main_call1.v2 main_call1.v3 (broadcastInDim S16384x64 ![] bcast_S_S16384x64),
    StableHlo.TRef.binary main_call1.v3 (.of main_v15 : StableHlo.TRef sig ⟨S16384x64, .f32⟩) main_call1.v4 mulf,
    StableHlo.TRef.ternary main_call1.v1 (.of main_v15 : StableHlo.TRef sig ⟨S16384x64, .f32⟩) main_call1.v4 main_call1.call0.v0 select,
    StableHlo.binary main_v10 main_v16 main_v17 (addf : (⟨S16384x64, .f32⟩ : BufTy).Contents (Elt F) → (⟨S16384x64, .f32⟩ : BufTy).Contents (Elt F) → (⟨S16384x64, .f32⟩ : BufTy).Contents (Elt F)) ]

/-- The buffers the operations of `opsC` write. -/
abbrev WC : List (Ref sig .tc) := [main_v11, main_v12, main_v13, main_v14, main_v15, main_cst_0, main_call1_cst, main_call1_v0, main_call1_v1, main_call1_v2, main_call1_v3, main_call1_v4, main_v16, main_v17]

theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl⟩

theorem opsC_writes : (opsC : List (HloOp τ sig (Elt F))).Forall fun op =>
    op.writes ⊆ (WC.map (Proc.devRef (τ := τ) .tc)).toFinset :=
  ⟨w_sub main_v11 rfl (by decide),
   w_sub main_v12 rfl (by decide),
   w_sub main_v13 rfl (by decide),
   w_sub main_v14 rfl (by decide),
   w_sub main_v15 rfl (by decide),
   w_sub main_cst_0 rfl (by decide),
   w_sub main_call1_cst rfl (by decide),
   w_sub main_call1_v0 rfl (by decide),
   w_sub main_call1_v1 rfl (by decide),
   w_sub main_call1_v2 rfl (by decide),
   w_sub main_call1_v3 rfl (by decide),
   w_sub main_call1_v4 rfl (by decide),
   w_sub main_v16 rfl (by decide),
   w_sub main_v17 rfl (by decide)⟩

/-- A buffer that `opsC` does not write keeps its contents through it. -/
theorem keepC (V : Valuation τ sig (Elt F)) (r : Ref sig .tc) (h : r ∉ WC) :
    after opsC V (Proc.devRef .tc r) = V (Proc.devRef .tc r) :=
  after_of_writes_sub opsC V opsC_writes h

/-- Batch normalization, the two segment sums, the division and the readout's first affine map (50 operations). -/
abbrev opsD : List (HloOp τ sig (Elt F)) :=
  [ StableHlo.nullary main_cst_1 (constant S_ .f32 0x00000000#32),
    StableHlo.binary main_v17 main_cst_1 main_v18 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    StableHlo.nullary main_cst_2 (constant S_ .f32 0x46800000#32),
    StableHlo.unary main_cst_2 main_v19 (broadcastInDim S64 ![] bcast_S_S64 : (⟨S_, .f32⟩ : BufTy).Contents (Elt F) → (⟨S64, .f32⟩ : BufTy).Contents (Elt F)),
    StableHlo.binary main_v18 main_v19 main_v20 (Host.divf : (⟨S64, .f32⟩ : BufTy).Contents (Elt F) → (⟨S64, .f32⟩ : BufTy).Contents (Elt F) → (⟨S64, .f32⟩ : BufTy).Contents (Elt F)),
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S16384x64 ![0, 1] bcast_S1x64_S16384x64_0_1 : (⟨S1x64, .f32⟩ : BufTy).Contents (Elt F) → (⟨S16384x64, .f32⟩ : BufTy).Contents (Elt F)),
    StableHlo.binary main_v17 main_v22 main_v23 (subf : (⟨S16384x64, .f32⟩ : BufTy).Contents (Elt F) → (⟨S16384x64, .f32⟩ : BufTy).Contents (Elt F) → (⟨S16384x64, .f32⟩ : BufTy).Contents (Elt F)),
    StableHlo.binary main_v23 main_v23 main_v24 (mulf : (⟨S16384x64, .f32⟩ : BufTy).Contents (Elt F) → (⟨S16384x64, .f32⟩ : BufTy).Contents (Elt F) → (⟨S16384x64, .f32⟩ : BufTy).Contents (Elt F)),
    StableHlo.nullary main_cst_3 (constant S_ .f32 0x00000000#32),
    StableHlo.binary main_v24 main_cst_3 main_v25 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    StableHlo.nullary main_cst_4 (constant S_ .f32 0x46800000#32),
    StableHlo.unary main_cst_4 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.unary main_v20 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S16384x64 ![0, 1] bcast_S1x64_S16384x64_0_1 : (⟨S1x64, .f32⟩ : BufTy).Contents (Elt F) → (⟨S16384x64, .f32⟩ : BufTy).Contents (Elt F)),
    StableHlo.binary main_v17 main_v29 main_v30 (subf : (⟨S16384x64, .f32⟩ : BufTy).Contents (Elt F) → (⟨S16384x64, .f32⟩ : BufTy).Contents (Elt F) → (⟨S16384x64, .f32⟩ : BufTy).Contents (Elt F)),
    StableHlo.nullary main_cst_5 (constant S_ .f32 0x3727C5AC#32),
    StableHlo.unary main_cst_5 main_v31 (broadcastInDim S64 ![] bcast_S_S64 : (⟨S_, .f32⟩ : BufTy).Contents (Elt F) → (⟨S64, .f32⟩ : BufTy).Contents (Elt F)),
    StableHlo.binary main_v27 main_v31 main_v32 (addf : (⟨S64, .f32⟩ : BufTy).Contents (Elt F) → (⟨S64, .f32⟩ : BufTy).Contents (Elt F) → (⟨S64, .f32⟩ : BufTy).Contents (Elt F)),
    StableHlo.unary main_v32 main_v33 (Host.rsqrt : (⟨S64, .f32⟩ : BufTy).Contents (Elt F) → (⟨S64, .f32⟩ : BufTy).Contents (Elt F)),
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S16384x64 ![0, 1] bcast_S1x64_S16384x64_0_1 : (⟨S1x64, .f32⟩ : BufTy).Contents (Elt F) → (⟨S16384x64, .f32⟩ : BufTy).Contents (Elt F)),
    StableHlo.binary main_v30 main_v35 main_v36 (mulf : (⟨S16384x64, .f32⟩ : BufTy).Contents (Elt F) → (⟨S16384x64, .f32⟩ : BufTy).Contents (Elt F) → (⟨S16384x64, .f32⟩ : BufTy).Contents (Elt F)),
    StableHlo.unary main_arg11 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S16384x64 ![0, 1] bcast_S1x64_S16384x64_0_1 : (⟨S1x64, .f32⟩ : BufTy).Contents (Elt F) → (⟨S16384x64, .f32⟩ : BufTy).Contents (Elt F)),
    StableHlo.binary main_v36 main_v38 main_v39 (mulf : (⟨S16384x64, .f32⟩ : BufTy).Contents (Elt F) → (⟨S16384x64, .f32⟩ : BufTy).Contents (Elt F) → (⟨S16384x64, .f32⟩ : BufTy).Contents (Elt F)),
    StableHlo.unary main_arg12 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S16384x64 ![0, 1] bcast_S1x64_S16384x64_0_1 : (⟨S1x64, .f32⟩ : BufTy).Contents (Elt F) → (⟨S16384x64, .f32⟩ : BufTy).Contents (Elt F)),
    StableHlo.binary main_v39 main_v41 main_v42 (addf : (⟨S16384x64, .f32⟩ : BufTy).Contents (Elt F) → (⟨S16384x64, .f32⟩ : BufTy).Contents (Elt F) → (⟨S16384x64, .f32⟩ : BufTy).Contents (Elt F)),
    StableHlo.nullary main_cst_6 (constant S_ .f32 0x00000000#32),
    StableHlo.unary main_cst_6 main_v43 (broadcastInDim S64x64 ![] bcast_S_S64x64 : (⟨S_, .f32⟩ : BufTy).Contents (Elt F) → (⟨S64x64, .f32⟩ : BufTy).Contents (Elt F)),
    StableHlo.unary main_arg4 main_v44 (broadcastInDim S16384x1 ![0] bcast_S16384_S16384x1_0 : (⟨S16384, .i32⟩ : BufTy).Contents (Elt F) → (⟨S16384x1, .i32⟩ : BufTy).Contents (Elt F)),
    StableHlo.ternary main_v43 main_v44 main_v42 main_v45 ((fun x i u => Host.scatterAdd scatter_S64x64_S16384x1_S16384x64_1_0_0_1 x i u) : (⟨S64x64, .f32⟩ : BufTy).Contents (Elt F) → (⟨S16384x1, .i32⟩ : BufTy).Contents (Elt F) → (⟨S16384x64, .f32⟩ : BufTy).Contents (Elt F) → (⟨S64x64, .f32⟩ : BufTy).Contents (Elt F)),
    StableHlo.nullary main_cst_7 (constant S_ .f32 0x3F800000#32),
    StableHlo.unary main_cst_7 main_v46 (broadcastInDim S16384 ![] bcast_S_S16384 : (⟨S_, .f32⟩ : BufTy).Contents (Elt F) → (⟨S16384, .f32⟩ : BufTy).Contents (Elt F)),
    StableHlo.nullary main_cst_8 (constant S_ .f32 0x00000000#32),
    StableHlo.unary main_cst_8 main_v47 (broadcastInDim S64 ![] bcast_S_S64 : (⟨S_, .f32⟩ : BufTy).Contents (Elt F) → (⟨S64, .f32⟩ : BufTy).Contents (Elt F)),
    StableHlo.unary main_arg4 main_v48 (broadcastInDim S16384x1 ![0] bcast_S16384_S16384x1_0 : (⟨S16384, .i32⟩ : BufTy).Contents (Elt F) → (⟨S16384x1, .i32⟩ : BufTy).Contents (Elt F)),
    StableHlo.ternary main_v47 main_v48 main_v46 main_v49 ((fun x i u => Host.scatterAdd scatter_S64_S16384x1_S16384_n_0_0_1 x i u) : (⟨S64, .f32⟩ : BufTy).Contents (Elt F) → (⟨S16384x1, .i32⟩ : BufTy).Contents (Elt F) → (⟨S16384, .f32⟩ : BufTy).Contents (Elt F) → (⟨S64, .f32⟩ : BufTy).Contents (Elt F)),
    StableHlo.nullary main_cst_9 (constant S_ .f32 0x3F800000#32),
    StableHlo.unary main_cst_9 main_v50 (broadcastInDim S64 ![] bcast_S_S64 : (⟨S_, .f32⟩ : BufTy).Contents (Elt F) → (⟨S64, .f32⟩ : BufTy).Contents (Elt F)),
    StableHlo.binary main_v49 main_v50 main_v51 (maximumf : (⟨S64, .f32⟩ : BufTy).Contents (Elt F) → (⟨S64, .f32⟩ : BufTy).Contents (Elt F) → (⟨S64, .f32⟩ : BufTy).Contents (Elt F)),
    StableHlo.unary main_v51 main_v52 (broadcastInDim S64x1 ![0] bcast_S64_S64x1_0 : (⟨S64, .f32⟩ : BufTy).Contents (Elt F) → (⟨S64x1, .f32⟩ : BufTy).Contents (Elt F)),
    StableHlo.unary main_v52 main_v53 (broadcastInDim S64x64 ![0, 1] bcast_S64x1_S64x64_0_1 : (⟨S64x1, .f32⟩ : BufTy).Contents (Elt F) → (⟨S64x64, .f32⟩ : BufTy).Contents (Elt F)),
    StableHlo.binary main_v45 main_v53 main_v54 (Host.divf : (⟨S64x64, .f32⟩ : BufTy).Contents (Elt F) → (⟨S64x64, .f32⟩ : BufTy).Contents (Elt F) → (⟨S64x64, .f32⟩ : BufTy).Contents (Elt F)),
    StableHlo.binary main_v54 main_arg13 main_v55 ((fun l r => Host.dotGeneral dot_S64x64_S64x128_S64x128_1_0_0_1_n_n none l r) : (⟨S64x64, .f32⟩ : BufTy).Contents (Elt F) → (⟨S64x128, .f32⟩ : BufTy).Contents (Elt F) → (⟨S64x128, .f32⟩ : BufTy).Contents (Elt F)),
    StableHlo.unary main_arg14 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S64x128 ![0, 1] bcast_S1x128_S64x128_0_1 : (⟨S1x128, .f32⟩ : BufTy).Contents (Elt F) → (⟨S64x128, .f32⟩ : BufTy).Contents (Elt F)),
    StableHlo.binary main_v55 main_v57 main_v58 (addf : (⟨S64x128, .f32⟩ : BufTy).Contents (Elt F) → (⟨S64x128, .f32⟩ : BufTy).Contents (Elt F) → (⟨S64x128, .f32⟩ : BufTy).Contents (Elt F)) ]

/-- The buffers the operations of `opsD` write. -/
abbrev WD : List (Ref sig .tc) := [main_cst_1, main_v18, main_cst_2, main_v19, main_v20, main_v21, main_v22, main_v23, main_v24, main_cst_3, main_v25, main_cst_4, main_v26, main_v27, main_v28, main_v29, main_v30, main_cst_5, main_v31, main_v32, main_v33, main_v34, main_v35, main_v36, main_v37, main_v38, main_v39, main_v40, main_v41, main_v42, main_cst_6, main_v43, main_v44, main_v45, main_cst_7, main_v46, main_cst_8, main_v47, main_v48, main_v49, main_cst_9, main_v50, main_v51, main_v52, main_v53, main_v54, main_v55, main_v56, main_v57, main_v58]

theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_writes : (opsD : List (HloOp τ sig (Elt F))).Forall fun op =>
    op.writes ⊆ (WD.map (Proc.devRef (τ := τ) .tc)).toFinset :=
  ⟨w_sub main_cst_1 rfl (by decide),
   w_sub main_v18 rfl (by decide),
   w_sub main_cst_2 rfl (by decide),
   w_sub main_v19 rfl (by decide),
   w_sub main_v20 rfl (by decide),
   w_sub main_v21 rfl (by decide),
   w_sub main_v22 rfl (by decide),
   w_sub main_v23 rfl (by decide),
   w_sub main_v24 rfl (by decide),
   w_sub main_cst_3 rfl (by decide),
   w_sub main_v25 rfl (by decide),
   w_sub main_cst_4 rfl (by decide),
   w_sub main_v26 rfl (by decide),
   w_sub main_v27 rfl (by decide),
   w_sub main_v28 rfl (by decide),
   w_sub main_v29 rfl (by decide),
   w_sub main_v30 rfl (by decide),
   w_sub main_cst_5 rfl (by decide),
   w_sub main_v31 rfl (by decide),
   w_sub main_v32 rfl (by decide),
   w_sub main_v33 rfl (by decide),
   w_sub main_v34 rfl (by decide),
   w_sub main_v35 rfl (by decide),
   w_sub main_v36 rfl (by decide),
   w_sub main_v37 rfl (by decide),
   w_sub main_v38 rfl (by decide),
   w_sub main_v39 rfl (by decide),
   w_sub main_v40 rfl (by decide),
   w_sub main_v41 rfl (by decide),
   w_sub main_v42 rfl (by decide),
   w_sub main_cst_6 rfl (by decide),
   w_sub main_v43 rfl (by decide),
   w_sub main_v44 rfl (by decide),
   w_sub main_v45 rfl (by decide),
   w_sub main_cst_7 rfl (by decide),
   w_sub main_v46 rfl (by decide),
   w_sub main_cst_8 rfl (by decide),
   w_sub main_v47 rfl (by decide),
   w_sub main_v48 rfl (by decide),
   w_sub main_v49 rfl (by decide),
   w_sub main_cst_9 rfl (by decide),
   w_sub main_v50 rfl (by decide),
   w_sub main_v51 rfl (by decide),
   w_sub main_v52 rfl (by decide),
   w_sub main_v53 rfl (by decide),
   w_sub main_v54 rfl (by decide),
   w_sub main_v55 rfl (by decide),
   w_sub main_v56 rfl (by decide),
   w_sub main_v57 rfl (by decide),
   w_sub main_v58 rfl (by decide)⟩

/-- A buffer that `opsD` does not write keeps its contents through it. -/
theorem keepD (V : Valuation τ sig (Elt F)) (r : Ref sig .tc) (h : r ∉ WD) :
    after opsD V (Proc.devRef .tc r) = V (Proc.devRef .tc r) :=
  after_of_writes_sub opsD V opsD_writes h

/-- The rectifier's three operations over its call's buffers and the readout's second affine map (7 operations). -/
abbrev opsE : List (HloOp τ sig (Elt F)) :=
  [ StableHlo.TRef.nullary main_call2.cst (constant S_ .f32 0x00000000#32),
    StableHlo.TRef.unary main_call2.cst main_call2.v0 (broadcastInDim S64x128 ![] bcast_S_S64x128),
    StableHlo.TRef.binary (.of main_v58 : StableHlo.TRef sig ⟨S64x128, .f32⟩) main_call2.v0 main_call2.v1 maximumf,
    StableHlo.binary main_v59 main_arg15 main_v60 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg16 main_v61 (broadcastInDim S1x1 ![1] bcast_S1_S1x1_1 : (⟨S1, .f32⟩ : BufTy).Contents (Elt F) → (⟨S1x1, .f32⟩ : BufTy).Contents (Elt F)),
    StableHlo.unary main_v61 main_v62 (broadcastInDim S64x1 ![0, 1] bcast_S1x1_S64x1_0_1 : (⟨S1x1, .f32⟩ : BufTy).Contents (Elt F) → (⟨S64x1, .f32⟩ : BufTy).Contents (Elt F)),
    StableHlo.binary main_v60 main_v62 main_v63 (addf : (⟨S64x1, .f32⟩ : BufTy).Contents (Elt F) → (⟨S64x1, .f32⟩ : BufTy).Contents (Elt F) → (⟨S64x1, .f32⟩ : BufTy).Contents (Elt F)) ]

/-- The buffers the operations of `opsE` write. -/
abbrev WE : List (Ref sig .tc) := [main_call2_cst, main_call2_v0, main_v59, main_v60, main_v61, main_v62, main_v63]

theorem opsE_sub : (opsE : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

theorem opsE_fresh : (opsE : List (HloOp τ sig (Elt F))).Forall fun op => op.fresh = ∅ :=
  ⟨rfl, rfl, rfl, rfl, rfl, rfl, rfl⟩

theorem opsE_writes : (opsE : List (HloOp τ sig (Elt F))).Forall fun op =>
    op.writes ⊆ (WE.map (Proc.devRef (τ := τ) .tc)).toFinset :=
  ⟨w_sub main_call2_cst rfl (by decide),
   w_sub main_call2_v0 rfl (by decide),
   w_sub main_v59 rfl (by decide),
   w_sub main_v60 rfl (by decide),
   w_sub main_v61 rfl (by decide),
   w_sub main_v62 rfl (by decide),
   w_sub main_v63 rfl (by decide)⟩

/-- A buffer that `opsE` does not write keeps its contents through it. -/
theorem keepE (V : Valuation τ sig (Elt F)) (r : Ref sig .tc) (h : r ∉ WE) :
    after opsE V (Proc.devRef .tc r) = V (Proc.devRef .tc r) :=
  after_of_writes_sub opsE V opsE_writes h

/-- The whole program: the five stretches in order. -/
abbrev ops : List (HloOp τ sig (Elt F)) := opsA ++ opsB ++ opsC ++ opsD ++ opsE

-- eighty-nine binds re-associated: the rewriting recurses once per statement
set_option maxRecDepth 8192 in
set_option maxHeartbeats 4000000 in
/-- @main is that straight line: its two windows, the outlined functions' bodies unfolded at their calls, are one chain
    of steps once sequencing is re-associated. -/
theorem main_eq (c : Dev nD) : main (F := F) c = seq ops := by
  simp only [main, main_part0, main_part1, fn_leaky_relu.body, fn_where.body, fn_relu.body, ops, opsA, opsB, opsC, opsD, opsE,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

theorem ops_fresh : ∀ op ∈ (ops : List (HloOp τ sig (Elt F))), op.fresh = ∅ := fun op h => by
  simp only [ops, List.mem_append] at h
  rcases h with (((h | h) | h) | h) | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h]

/-- The contents after the whole program, stretch by stretch. -/
theorem after_ops (V : Valuation τ sig (Elt F)) :
    after ops V = after opsE (after opsD (after opsC (after opsB (after opsA V)))) := by
  simp only [ops, after_app]

/-- A buffer no stretch writes keeps its contents through the program. -/
theorem keep (V : Valuation τ sig (Elt F)) (r : Ref sig .tc) (hA : r ∉ WA) (hB : r ∉ WB) (hC : r ∉ WC) (hD : r ∉ WD)
    (hE : r ∉ WE) : after ops V (Proc.devRef .tc r) = V (Proc.devRef .tc r) := by
  rw [after_ops, keepE _ r hE, keepD _ r hD, keepC _ r hC, keepB _ r hB, keepA _ r hA]

end Cert.ReferenceIdeal.Hand

end
-- ==== Proof.Ref.Spec.lean ====
/-
  What the reference computes, as pure functions of its arguments: the embedding, a layer, and everything after the
  second layer.
-/
import proofs.«176179_j3418793968209_1_alg».proof.ReferenceIdeal
import proofs.«176179_j3418793968209_1_alg».proof.Proof.Gen.ReferenceIdeal

noncomputable section

namespace Cert.ReferenceIdeal.Hand

open Cert.ReferenceIdeal Cert.ReferenceIdeal.Facts₀
open Idealize.ShloMosaic

variable {F : FTy → Type} [FloatOps F]

/-- The embedded node features: the input features times the embedding weights, plus the embedding bias on every row. -/
def embed (X : (⟨S16384x92, .f32⟩ : BufTy).Contents (Elt F)) (We : (⟨S92x64, .f32⟩ : BufTy).Contents (Elt F))
    (be : (⟨S64, .f32⟩ : BufTy).Contents (Elt F)) : (⟨S16384x64, .f32⟩ : BufTy).Contents (Elt F) :=
  addf (Host.dotGeneral dot_S16384x92_S92x64_S16384x64_1_0_0_1_n_n none X We)
    (broadcastInDim S16384x64 ![0, 1] bcast_S1x64_S16384x64_0_1 (broadcastInDim S1x64 ![1] bcast_S64_S1x64_1 be))

/-- The node features projected by a layer's weights. -/
def proj (X : (⟨S16384x64, .f32⟩ : BufTy).Contents (Elt F)) (W : (⟨S64x64, .f32⟩ : BufTy).Contents (Elt F)) :
    (⟨S16384x64, .f32⟩ : BufTy).Contents (Elt F) :=
  Host.dotGeneral dot_S16384x64_S64x64_S16384x64_1_0_0_1_n_n none X W

/-- One graph-convolution layer as the reference computes it: the adjacency times the projected features, plus the
    bias on every row, through the leaky rectifier (a comparison with zero selecting the value or the slope times
    it), added to the layer's input. -/
def layer (A : (⟨S16384x16384, .f32⟩ : BufTy).Contents (Elt F)) (X : (⟨S16384x64, .f32⟩ : BufTy).Contents (Elt F))
    (W : (⟨S64x64, .f32⟩ : BufTy).Contents (Elt F)) (b : (⟨S64, .f32⟩ : BufTy).Contents (Elt F)) :
    (⟨S16384x64, .f32⟩ : BufTy).Contents (Elt F) :=
  let z := addf (Host.dotGeneral dot_S16384x16384_S16384x64_S16384x64_1_0_0_1_n_n none A (proj X W))
    (broadcastInDim S16384x64 ![0, 1] bcast_S1x64_S16384x64_0_1 (broadcastInDim S1x64 ![1] bcast_S64_S1x64_1 b))
  addf X (select (cmpf .oge z (broadcastInDim S16384x64 ![] bcast_S_S16384x64 (constant S_ .f32 0x00000000#32))) z
    (mulf (broadcastInDim S16384x64 ![] bcast_S_S16384x64 (id (constant S_ .f32 0x3C23D70A#32 : (⟨S_, .f32⟩ : BufTy).Contents (Elt F)))) z))

/-- Batch normalization over the node axis (batch mean and biased variance), the scale and the shift; then the
    segment sums of the rows by the segment ids and the segment sizes, the mean per segment (sizes below one read as
    one); then the readout's first affine map. All of it the program's own operations, composed in
    the order the program applies them, from the node features `X2` after the second layer. -/
def preact (X2 : (⟨S16384x64, .f32⟩ : BufTy).Contents (Elt F)) (N : (⟨S16384, .i32⟩ : BufTy).Contents (Elt F))
    (g : (⟨S64, .f32⟩ : BufTy).Contents (Elt F)) (bt : (⟨S64, .f32⟩ : BufTy).Contents (Elt F))
    (Wn1 : (⟨S64x128, .f32⟩ : BufTy).Contents (Elt F)) (bn1 : (⟨S128, .f32⟩ : BufTy).Contents (Elt F)) :
    (⟨S64x128, .f32⟩ : BufTy).Contents (Elt F) :=
  let zero : (⟨S_, .f32⟩ : BufTy).Contents (Elt F) := constant S_ .f32 0x00000000#32
  let one : (⟨S_, .f32⟩ : BufTy).Contents (Elt F) := constant S_ .f32 0x3F800000#32
  let cnt : (⟨S64, .f32⟩ : BufTy).Contents (Elt F) := broadcastInDim S64 ![] bcast_S_S64 (constant S_ .f32 0x46800000#32)
  let rows (v : (⟨S64, .f32⟩ : BufTy).Contents (Elt F)) : (⟨S16384x64, .f32⟩ : BufTy).Contents (Elt F) :=
    broadcastInDim S16384x64 ![0, 1] bcast_S1x64_S16384x64_0_1 (broadcastInDim S1x64 ![1] bcast_S64_S1x64_1 v)
  let mean := Host.divf (Host.reduceAdd X2 zero reducesTo_S16384x64_S64_d0 h_S_) cnt
  let d := subf X2 (rows mean)
  let var := Host.divf (Host.reduceAdd (mulf d d) zero reducesTo_S16384x64_S64_d0 h_S_) cnt
  let rs := Host.rsqrt (addf var (broadcastInDim S64 ![] bcast_S_S64 (constant S_ .f32 0x3727C5AC#32)))
  let xn := addf (mulf (mulf (subf X2 (rows mean)) (rows rs)) (rows g)) (rows bt)
  let ids : (⟨S16384x1, .i32⟩ : BufTy).Contents (Elt F) := broadcastInDim S16384x1 ![0] bcast_S16384_S16384x1_0 N
  let sums := Host.scatterAdd scatter_S64x64_S16384x1_S16384x64_1_0_0_1 (broadcastInDim S64x64 ![] bcast_S_S64x64 zero) ids xn
  let sizes := Host.scatterAdd scatter_S64_S16384x1_S16384_n_0_0_1 (broadcastInDim S64 ![] bcast_S_S64 zero) ids
    (broadcastInDim S16384 ![] bcast_S_S16384 one)
  let den := broadcastInDim S64x64 ![0, 1] bcast_S64x1_S64x64_0_1
    (broadcastInDim S64x1 ![0] bcast_S64_S64x1_0 (maximumf sizes (broadcastInDim S64 ![] bcast_S_S64 one)))
  let pooled := Host.divf sums den
  addf (Host.dotGeneral dot_S64x64_S64x128_S64x128_1_0_0_1_n_n none pooled Wn1)
    (broadcastInDim S64x128 ![0, 1] bcast_S1x128_S64x128_0_1 (broadcastInDim S1x128 ![1] bcast_S128_S1x128_1 bn1))

/-- Everything after the second layer: the readout's first affine map of the pooled normalized features
    (`preact`), the rectifier, the readout's second affine map. -/
def tail (X2 : (⟨S16384x64, .f32⟩ : BufTy).Contents (Elt F)) (N : (⟨S16384, .i32⟩ : BufTy).Contents (Elt F))
    (g : (⟨S64, .f32⟩ : BufTy).Contents (Elt F)) (bt : (⟨S64, .f32⟩ : BufTy).Contents (Elt F))
    (Wn1 : (⟨S64x128, .f32⟩ : BufTy).Contents (Elt F)) (bn1 : (⟨S128, .f32⟩ : BufTy).Contents (Elt F))
    (Wn2 : (⟨S128x1, .f32⟩ : BufTy).Contents (Elt F)) (bn2 : (⟨S1, .f32⟩ : BufTy).Contents (Elt F)) :
    (⟨S64x1, .f32⟩ : BufTy).Contents (Elt F) :=
  addf (Host.dotGeneral dot_S64x128_S128x1_S64x1_1_0_0_1_n_n none
      (maximumf (preact X2 N g bt Wn1 bn1) (broadcastInDim S64x128 ![] bcast_S_S64x128 (constant S_ .f32 0x00000000#32))) Wn2)
    (broadcastInDim S64x1 ![0, 1] bcast_S1x1_S64x1_0_1 (broadcastInDim S1x1 ![1] bcast_S1_S1x1_1 bn2))

end Cert.ReferenceIdeal.Hand

end
-- ==== Proof.Ref.Run.lean ====
/-
  The run of the reference program: every weakly fair execution terminates with the result buffer at the composed value
  `tail (layer A (layer A (embed X We be) W1 b1) W2 b2) …` of the arguments' launch contents, and the arguments unchanged.
  Each stretch of the operation list is read from ANY contents: its result is the stretch's function of the buffers it
  reads; the stretches are then joined, an argument read through a stretch being what it was before.
-/
import proofs.«176179_j3418793968209_1_alg».proof.Proof.Ref.Ops
import proofs.«176179_j3418793968209_1_alg».proof.Proof.Ref.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The embedding's stretch leaves the embedded features in its result buffer. -/
theorem outA (V : Valuation τ sig (Elt F)) :
    after opsA V (Proc.devRef .tc main_v3) = embed (V (Proc.devRef .tc main_arg0)) (V (Proc.devRef .tc main_arg5)) (V (Proc.devRef .tc main_arg6)) := by
  after_results
  rfl

/-- The first layer's stretch leaves the layer's value of the embedded features in its result buffer. -/
theorem outB (V : Valuation τ sig (Elt F)) :
    after opsB V (Proc.devRef .tc main_v10)
      = layer (V (Proc.devRef .tc main_arg1)) (V (Proc.devRef .tc main_v3)) (V (Proc.devRef .tc main_arg7)) (V (Proc.devRef .tc main_arg8)) := by
  after_results_simp
  rfl

/-- The second layer's stretch, likewise from the first layer's result. -/
theorem outC (V : Valuation τ sig (Elt F)) :
    after opsC V (Proc.devRef .tc main_v17)
      = layer (V (Proc.devRef .tc main_arg1)) (V (Proc.devRef .tc main_v10)) (V (Proc.devRef .tc main_arg9)) (V (Proc.devRef .tc main_arg10)) := by
  after_results_simp
  rfl

set_option maxRecDepth 8192 in
set_option maxHeartbeats 4000000 in
/-- The fourth stretch leaves the readout's first affine map of the pooled normalized features. -/
theorem outD (V : Valuation τ sig (Elt F)) :
    after opsD V (Proc.devRef .tc main_v58)
      = preact (V (Proc.devRef .tc main_v17)) (V (Proc.devRef .tc main_arg4)) (V (Proc.devRef .tc main_arg11)) (V (Proc.devRef .tc main_arg12)) (V (Proc.devRef .tc main_arg13)) (V (Proc.devRef .tc main_arg14)) := by
  after_results_simp
  rfl

/-- The last stretch: the rectifier and the readout's second affine map. -/
theorem outE (V : Valuation τ sig (Elt F)) :
    after opsE V (Proc.devRef .tc main_v63)
      = addf (Host.dotGeneral dot_S64x128_S128x1_S64x1_1_0_0_1_n_n none
            (maximumf (V (Proc.devRef .tc main_v58)) (broadcastInDim S64x128 ![] bcast_S_S64x128 (constant S_ .f32 0x00000000#32)))
            (V (Proc.devRef .tc main_arg15)))
          (broadcastInDim S64x1 ![0, 1] bcast_S1x1_S64x1_0_1 (broadcastInDim S1x1 ![1] bcast_S1_S1x1_1 (V (Proc.devRef .tc main_arg16)))) := by
  after_results_simp
  rfl

/-- The program's result, from any contents: the stretches joined. -/
theorem out_eq (V : Valuation τ sig (Elt F)) :
    after ops V (Proc.devRef .tc main_v63)
      = tail (layer (V (Proc.devRef .tc main_arg1)) (layer (V (Proc.devRef .tc main_arg1)) (embed (V (Proc.devRef .tc main_arg0)) (V (Proc.devRef .tc main_arg5)) (V (Proc.devRef .tc main_arg6))) (V (Proc.devRef .tc main_arg7)) (V (Proc.devRef .tc main_arg8))) (V (Proc.devRef .tc main_arg9)) (V (Proc.devRef .tc main_arg10)))
        (V (Proc.devRef .tc main_arg4)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold tail
  rw [after_ops, outE, outD, outC, outB, outA]
  rw [keepD _ main_arg15 (by decide), keepD _ main_arg16 (by decide)]
  rw [keepC _ main_arg15 (by decide), keepC _ main_arg16 (by decide), keepC _ main_arg4 (by decide), keepC _ main_arg11 (by decide), keepC _ main_arg12 (by decide), keepC _ main_arg13 (by decide), keepC _ main_arg14 (by decide)]
  rw [keepB _ main_arg1 (by decide), keepB _ main_arg9 (by decide), keepB _ main_arg10 (by decide), keepB _ main_arg15 (by decide), keepB _ main_arg16 (by decide), keepB _ main_arg4 (by decide), keepB _ main_arg11 (by decide), keepB _ main_arg12 (by decide), keepB _ main_arg13 (by decide), keepB _ main_arg14 (by decide)]
  rw [keepA _ main_arg1 (by decide), keepA _ main_arg7 (by decide), keepA _ main_arg8 (by decide), keepA _ main_arg9 (by decide), keepA _ main_arg10 (by decide), keepA _ main_arg15 (by decide), keepA _ main_arg16 (by decide), keepA _ main_arg4 (by decide), keepA _ main_arg11 (by decide), keepA _ main_arg12 (by decide), keepA _ main_arg13 (by decide), keepA _ main_arg14 (by decide)]

/-- On every device, for any float values, from any memory with zero counters: every weakly fair execution of @main
    terminates with the result at the composed value of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v63)
        = tail (layer (m ((c.tc : Thread nD τ).loc main_arg1)) (layer (m ((c.tc : Thread nD τ).loc main_arg1)) (embed (m ((c.tc : Thread nD τ).loc main_arg0)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)))
        (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v63).trans (out_eq _),
      (h c main_arg0).trans (keep _ main_arg0 (by decide) (by decide) (by decide) (by decide) (by decide)),
      (h c main_arg1).trans (keep _ main_arg1 (by decide) (by decide) (by decide) (by decide) (by decide)),
      (h c main_arg2).trans (keep _ main_arg2 (by decide) (by decide) (by decide) (by decide) (by decide)),
      (h c main_arg3).trans (keep _ main_arg3 (by decide) (by decide) (by decide) (by decide) (by decide)),
      (h c main_arg4).trans (keep _ main_arg4 (by decide) (by decide) (by decide) (by decide) (by decide)),
      (h c main_arg5).trans (keep _ main_arg5 (by decide) (by decide) (by decide) (by decide) (by decide)),
      (h c main_arg6).trans (keep _ main_arg6 (by decide) (by decide) (by decide) (by decide) (by decide)),
      (h c main_arg7).trans (keep _ main_arg7 (by decide) (by decide) (by decide) (by decide) (by decide)),
      (h c main_arg8).trans (keep _ main_arg8 (by decide) (by decide) (by decide) (by decide) (by decide)),
      (h c main_arg9).trans (keep _ main_arg9 (by decide) (by decide) (by decide) (by decide) (by decide)),
      (h c main_arg10).trans (keep _ main_arg10 (by decide) (by decide) (by decide) (by decide) (by decide)),
      (h c main_arg11).trans (keep _ main_arg11 (by decide) (by decide) (by decide) (by decide) (by decide)),
      (h c main_arg12).trans (keep _ main_arg12 (by decide) (by decide) (by decide) (by decide) (by decide)),
      (h c main_arg13).trans (keep _ main_arg13 (by decide) (by decide) (by decide) (by decide) (by decide)),
      (h c main_arg14).trans (keep _ main_arg14 (by decide) (by decide) (by decide) (by decide) (by decide)),
      (h c main_arg15).trans (keep _ main_arg15 (by decide) (by decide) (by decide) (by decide) (by decide)),
      (h c main_arg16).trans (keep _ main_arg16 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.KI.HostSpec.lean ====
/-
  What the program's host operations compute around its two regions, as pure functions: the embedding, a layer's
  projection, and everything after the second region.
-/
import proofs.«176179_j3418793968209_1_alg».proof.KernelIdeal
import proofs.«176179_j3418793968209_1_alg».proof.Proof.Gen.KernelIdeal

noncomputable section

namespace Cert.KernelIdeal.Hand

open Cert.KernelIdeal Cert.KernelIdeal.Facts₀
open Idealize.ShloMosaic

variable {F : FTy → Type} [FloatOps F]

/-- The embedded node features: the input features times the embedding weights, plus the embedding bias on every row. -/
def embed (X : (⟨S16384x92, .f32⟩ : BufTy).Contents (Elt F)) (We : (⟨S92x64, .f32⟩ : BufTy).Contents (Elt F))
    (be : (⟨S64, .f32⟩ : BufTy).Contents (Elt F)) : (⟨S16384x64, .f32⟩ : BufTy).Contents (Elt F) :=
  addf (Host.dotGeneral dot_S16384x92_S92x64_S16384x64_1_0_0_1_n_n none X We)
    (broadcastInDim S16384x64 ![0, 1] bcast_S1x64_S16384x64_0_1 (broadcastInDim S1x64 ![1] bcast_S64_S1x64_1 be))

/-- The node features projected by a layer's weights. -/
def proj (X : (⟨S16384x64, .f32⟩ : BufTy).Contents (Elt F)) (W : (⟨S64x64, .f32⟩ : BufTy).Contents (Elt F)) :
    (⟨S16384x64, .f32⟩ : BufTy).Contents (Elt F) :=
  Host.dotGeneral dot_S16384x64_S64x64_S16384x64_1_0_0_1_n_n none X W

/-- Batch normalization over the node axis (batch mean and biased variance), the scale and the shift; then the
    segment sums of the rows by the segment ids and the segment sizes, the mean per segment (sizes below one read as
    one); then the readout's first affine map. All of it the program's own operations, composed in
    the order the program applies them, from the node features `X2` after the second layer. -/
def preact (X2 : (⟨S16384x64, .f32⟩ : BufTy).Contents (Elt F)) (N : (⟨S16384, .i32⟩ : BufTy).Contents (Elt F))
    (g : (⟨S64, .f32⟩ : BufTy).Contents (Elt F)) (bt : (⟨S64, .f32⟩ : BufTy).Contents (Elt F))
    (Wn1 : (⟨S64x128, .f32⟩ : BufTy).Contents (Elt F)) (bn1 : (⟨S128, .f32⟩ : BufTy).Contents (Elt F)) :
    (⟨S64x128, .f32⟩ : BufTy).Contents (Elt F) :=
  let zero : (⟨S_, .f32⟩ : BufTy).Contents (Elt F) := constant S_ .f32 0x00000000#32
  let one : (⟨S_, .f32⟩ : BufTy).Contents (Elt F) := constant S_ .f32 0x3F800000#32
  let cnt : (⟨S64, .f32⟩ : BufTy).Contents (Elt F) := broadcastInDim S64 ![] bcast_S_S64 (constant S_ .f32 0x46800000#32)
  let rows (v : (⟨S64, .f32⟩ : BufTy).Contents (Elt F)) : (⟨S16384x64, .f32⟩ : BufTy).Contents (Elt F) :=
    broadcastInDim S16384x64 ![0, 1] bcast_S1x64_S16384x64_0_1 (broadcastInDim S1x64 ![1] bcast_S64_S1x64_1 v)
  let mean := Host.divf (Host.reduceAdd X2 zero reducesTo_S16384x64_S64_d0 h_S_) cnt
  let d := subf X2 (rows mean)
  let var := Host.divf (Host.reduceAdd (mulf d d) zero reducesTo_S16384x64_S64_d0 h_S_) cnt
  let rs := Host.rsqrt (addf var (broadcastInDim S64 ![] bcast_S_S64 (constant S_ .f32 0x3727C5AC#32)))
  let xn := addf (mulf (mulf (subf X2 (rows mean)) (rows rs)) (rows g)) (rows bt)
  let ids : (⟨S16384x1, .i32⟩ : BufTy).Contents (Elt F) := broadcastInDim S16384x1 ![0] bcast_S16384_S16384x1_0 N
  let sums := Host.scatterAdd scatter_S64x64_S16384x1_S16384x64_1_0_0_1 (broadcastInDim S64x64 ![] bcast_S_S64x64 zero) ids xn
  let sizes := Host.scatterAdd scatter_S64_S16384x1_S16384_n_0_0_1 (broadcastInDim S64 ![] bcast_S_S64 zero) ids
    (broadcastInDim S16384 ![] bcast_S_S16384 one)
  let den := broadcastInDim S64x64 ![0, 1] bcast_S64x1_S64x64_0_1
    (broadcastInDim S64x1 ![0] bcast_S64_S64x1_0 (maximumf sizes (broadcastInDim S64 ![] bcast_S_S64 one)))
  let pooled := Host.divf sums den
  addf (Host.dotGeneral dot_S64x64_S64x128_S64x128_1_0_0_1_n_n none pooled Wn1)
    (broadcastInDim S64x128 ![0, 1] bcast_S1x128_S64x128_0_1 (broadcastInDim S1x128 ![1] bcast_S128_S1x128_1 bn1))

/-- Everything after the second layer: the readout's first affine map of the pooled normalized features
    (`preact`), the rectifier, the readout's second affine map. -/
def tail (X2 : (⟨S16384x64, .f32⟩ : BufTy).Contents (Elt F)) (N : (⟨S16384, .i32⟩ : BufTy).Contents (Elt F))
    (g : (⟨S64, .f32⟩ : BufTy).Contents (Elt F)) (bt : (⟨S64, .f32⟩ : BufTy).Contents (Elt F))
    (Wn1 : (⟨S64x128, .f32⟩ : BufTy).Contents (Elt F)) (bn1 : (⟨S128, .f32⟩ : BufTy).Contents (Elt F))
    (Wn2 : (⟨S128x1, .f32⟩ : BufTy).Contents (Elt F)) (bn2 : (⟨S1, .f32⟩ : BufTy).Contents (Elt F)) :
    (⟨S64x1, .f32⟩ : BufTy).Contents (Elt F) :=
  addf (Host.dotGeneral dot_S64x128_S128x1_S64x1_1_0_0_1_n_n none
      (maximumf (preact X2 N g bt Wn1 bn1) (broadcastInDim S64x128 ![] bcast_S_S64x128 (constant S_ .f32 0x00000000#32))) Wn2)
    (broadcastInDim S64x1 ![0, 1] bcast_S1x1_S64x1_0_1 (broadcastInDim S1x1 ![1] bcast_S1_S1x1_1 bn2))

end Cert.KernelIdeal.Hand

end
-- ==== Proof.KI.HostValue.lean ====
/-
  What the host stretches leave in the buffers the bridge reads: the embedded features and their projection before
  the first region, the projection of the first layer's output before the second, and the result after the closing
  stretches as the function `tail` of the second layer's output.
-/
import proofs.«176179_j3418793968209_1_alg».proof.Proof.KI.Chain
import proofs.«176179_j3418793968209_1_alg».proof.Proof.KI.HostSpec
import proofs.«176179_j3418793968209_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-! ## What each stretch leaves alone -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h

/-! ## Before the first region -/

/-- The embedded features. -/
theorem W1_v3 (c : Dev nD) : W1 m c (Proc.devRef .tc main_v3)
    = embed (W0 m c (Proc.devRef .tc main_arg0)) (W0 m c (Proc.devRef .tc main_arg5)) (W0 m c (Proc.devRef .tc main_arg6)) := by
  show StableHlo.after hostOps0 (W0 m c) (Proc.devRef .tc main_v3) = _
  after_results
  rfl

/-- Their projection by the first layer's weights. -/
theorem W1_v4 (c : Dev nD) : W1 m c (Proc.devRef .tc main_v4)
    = proj (embed (W0 m c (Proc.devRef .tc main_arg0)) (W0 m c (Proc.devRef .tc main_arg5)) (W0 m c (Proc.devRef .tc main_arg6)))
        (W0 m c (Proc.devRef .tc main_arg7)) := by
  show StableHlo.after hostOps0 (W0 m c) (Proc.devRef .tc main_v4) = _
  after_results
  rfl

/-! ## Between the regions -/

/-- The first layer's output projected by the second layer's weights. -/
theorem W3_v6 (c : Dev nD) : W3 m c (Proc.devRef .tc main_v6)
    = proj (W2 m c (Proc.devRef .tc main_v5)) (W2 m c (Proc.devRef .tc main_arg9)) := by
  show StableHlo.after hostOps1 (W2 m c) (Proc.devRef .tc main_v6) = _
  after_results
  rfl

/-! ## After the second region -/

/-- The readout's first affine map. -/
theorem W5_v48 (c : Dev nD) : W5 m c (Proc.devRef .tc main_v48)
    = preact (W4 m c (Proc.devRef .tc main_v7)) (W4 m c (Proc.devRef .tc main_arg4)) (W4 m c (Proc.devRef .tc main_arg11))
        (W4 m c (Proc.devRef .tc main_arg12)) (W4 m c (Proc.devRef .tc main_arg13)) (W4 m c (Proc.devRef .tc main_arg14)) := by
  show StableHlo.after hostOps2 (W4 m c) (Proc.devRef .tc main_v48) = _
  generalize W4 m c = V
  after_results_simp
  rfl

/-- The rectifier. -/
theorem W6_v49 (c : Dev nD) : W6 m c (Proc.devRef .tc main_v49)
    = maximumf (W5 m c (Proc.devRef .tc main_v48))
        (broadcastInDim S64x128 ![] Facts₀.bcast_S_S64x128 (constant (F := F) S_ .f32 0x00000000#32)) := by
  show StableHlo.after hostOps2_1 (W5 m c) (Proc.devRef .tc main_v49) = _
  generalize W5 m c = V
  simp only [after_cons, after_nil]
  rfl

/-- The readout's second affine map. -/
theorem W7_v53 (c : Dev nD) : W7 m c (Proc.devRef .tc main_v53)
    = addf (Host.dotGeneral dot_S64x128_S128x1_S64x1_1_0_0_1_n_n none (W6 m c (Proc.devRef .tc main_v49)) (W6 m c (Proc.devRef .tc main_arg15)))
        (broadcastInDim S64x1 ![0, 1] Facts₀.bcast_S1x1_S64x1_0_1 (broadcastInDim S1x1 ![1] Facts₀.bcast_S1_S1x1_1 (W6 m c (Proc.devRef .tc main_arg16)))) := by
  show StableHlo.after hostOps2_2 (W6 m c) (Proc.devRef .tc main_v53) = _
  generalize W6 m c = V
  after_results

/-- The program's result, from what the second region left: `tail` of the second layer's output and the arguments. -/
theorem W7_result (c : Dev nD) : W7 m c (Proc.devRef .tc main_v53)
    = tail (W4 m c (Proc.devRef .tc main_v7)) (W4 m c (Proc.devRef .tc main_arg4)) (W4 m c (Proc.devRef .tc main_arg11))
        (W4 m c (Proc.devRef .tc main_arg12)) (W4 m c (Proc.devRef .tc main_arg13)) (W4 m c (Proc.devRef .tc main_arg14))
        (W4 m c (Proc.devRef .tc main_arg15)) (W4 m c (Proc.devRef .tc main_arg16)) := by
  rw [W7_v53, W6_v49, W5_v48, W6_of m c main_arg15 (by decide), W5_of m c main_arg15 (by decide),
    W6_of m c main_arg16 (by decide), W5_of m c main_arg16 (by decide)]
  rfl

end Cert.KernelIdeal.Hand

end
-- ==== Proof.Spec.lean ====
/-
  One graph-convolution layer with a residual connection, entry by entry over the extended reals:
  out(p, q) = x(p, q) + leaky(sum over e of a(p, e) * y(e, q) + b(q)),
  the leaky rectifier being z where z >= 0 and slope * z elsewhere, the slope the float 0.01's binary value.
-/
import Idealize.ShloMosaic.PureOps.Ideal
import Idealize.ShloMosaic.Lib.ValueIdx

noncomputable section

namespace Cert.GcSpec

open Idealize.ShloMosaic

/-- The leaky rectifier as both programs spell it: a comparison with zero selecting `z` or `slope * z`. -/
def leaky (z : EReal) : EReal :=
  Scalar.select (FloatOps.cmpf (F := Ideal) (φ := .f32) .oge z (Ideal.ofBits .f32 0x00000000#32)) z
    (Ideal.ofBits .f32 0x3C23D70A#32 * z)

/-- One layer at row `p`, column `q`: the residual entry plus the leaky rectifier of the aggregated features plus the bias. -/
def layer (a : Fin 16384 → Fin 16384 → EReal) (y : Fin 16384 → Fin 64 → EReal) (b : Fin 64 → EReal)
    (x : Fin 16384 → Fin 64 → EReal) (p : Fin 16384) (q : Fin 64) : EReal :=
  x p q + leaky ((∑ e : Fin 16384, a p e * y e q) + b q)

end Cert.GcSpec

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.KI.Value.lean ====
/-
  The value of each graph-convolution region over the extended reals: what the region's output array holds after
  the region, entry by entry, as a function of the arrays the region is entered with.

  At grid point t (row block t / 8, column block t % 8) the adjacency block read is rows 1024 (t / 8) + r and
  columns 2048 (t % 8) + e of the adjacency, the feature block is rows 2048 (t % 8) + e of the features, the
  residual and output blocks are rows 1024 (t / 8) + r. The scratch accumulator after column block k of row
  block i holds, at (r, q), the sum over the first k + 1 column blocks of the products' partial sums; after column
  block 7 that is the whole contraction over the 16384 positions. The point writes back the residual plus the
  leaky rectifier of that sum plus the bias, and the sixteen write-backs tile the output array.
-/
import proofs.«176179_j3418793968209_1_alg».proof.Proof.KI.Defs
import proofs.«176179_j3418793968209_1_alg».proof.Proof.Spec
import proofs.«176179_j3418793968209_1_alg».proof.Proof.LibMatmulNN
import proofs.«176179_j3418793968209_1_alg».proof.Proof.LibBlockedSum
import proofs.«176179_j3418793968209_1_alg».proof.Proof.LibBiasRow
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window cellOf)

/-! ## The body's three stored values read at an entry (either region's: the two bodies are one text) -/

/-- The dimension numbers of the body's product are the plain "rows against columns" ones. -/
theorem dot_eq : dot_S1024x2048_S2048x64_S1024x64_1_0_0_1_n_n
    = Cert.LibMatmulNN.dims (M := 1024) (N := 64) (K := 2048) dot_S1024x2048_S2048x64_S1024x64_1_0_0_1_n_n_wf := rfl

/-- The leaky rectifier of a block plus the bias row, added to the residual block, at entry (r, q). -/
theorem leaky_block_apply (acc : Vec Ideal S1024x64 .f32) (b : Vec Ideal S64 .f32) (x : Vec Ideal S1024x64 .f32)
    (r : Fin 1024) (q : Fin 64) :
    addf x (select (cmpf .oge (addf acc (broadcastTo S1024x64 (shapeCast S1x64 b shapeCasts_S64_S1x64) broadcasts_S1x64_S1024x64))
        (broadcast S1024x64 (Scalar.ofBits (F := Ideal) .f32 0x00000000#32)))
      (addf acc (broadcastTo S1024x64 (shapeCast S1x64 b shapeCasts_S64_S1x64) broadcasts_S1x64_S1024x64))
      (mulf (broadcast S1024x64 (Scalar.ofBits (F := Ideal) .f32 0x3C23D70A#32))
        (addf acc (broadcastTo S1024x64 (shapeCast S1x64 b shapeCasts_S64_S1x64) broadcasts_S1x64_S1024x64)))) (ix2 r q)
      = x (ix2 r q) + Cert.GcSpec.leaky (acc (ix2 r q) + b (ix1 q)) := by
  have hb := BiasRead.bias_rows_apply b shapeCasts_S64_S1x64 broadcasts_S1x64_S1024x64 r q
  unfold Cert.GcSpec.leaky
  rw [← hb]
  rfl

/-- Region 0's reset value is the zero block. -/
theorem pay1_0_apply (j : S1024x64.Idx) : k0_pay1 (F := Ideal) j = 0 := by
  unfold k0_pay1
  rw [shapeCast_self]
  exact Ideal.ofBits_zero_f32

/-- Region 0's accumulation step at entry (r, q): the accumulator's entry plus row r of the adjacency block against
    column q of the feature block. -/
theorem pay2_0_apply (x0 : Vec Ideal S1024x2048 .f32) (x1 : Vec Ideal S2048x64 .f32) (acc : Vec Ideal S1024x64 .f32)
    (r : Fin 1024) (q : Fin 64) :
    k0_pay2 x0 x1 acc (ix2 r q) = acc (ix2 r q) + ∑ e : Fin 2048, x0 (ix2 r e) * x1 (ix2 e q) := by
  unfold k0_pay2
  simp only [shapeCast_self]
  show acc (ix2 r q) + FloatOps.matmul (F := Ideal) dot_S1024x2048_S2048x64_S1024x64_1_0_0_1_n_n none
      (truncf (F := Ideal) .bf16 x0 bitsLt_bf16_f32) (truncf (F := Ideal) .bf16 x1 bitsLt_bf16_f32)
      (constant (F := Ideal) S1024x64 .f32 0x00000000#32) (ix2 r q) = _
  rw [dot_eq, Cert.LibMatmulNN.matmul_zero_apply]
  rfl

/-- Region 0's written-back value at entry (r, q): the residual entry plus the leaky rectifier of the accumulator's
    entry plus the bias entry. -/
theorem pay3_0_apply (acc : Vec Ideal S1024x64 .f32) (b : Vec Ideal S64 .f32) (x : Vec Ideal S1024x64 .f32)
    (r : Fin 1024) (q : Fin 64) :
    k0_pay3 acc b x (ix2 r q) = x (ix2 r q) + Cert.GcSpec.leaky (acc (ix2 r q) + b (ix1 q)) := by
  unfold k0_pay3
  simp only [shapeCast_self]
  exact leaky_block_apply acc b x r q

/-- Region 1's reset value is the zero block. -/
theorem pay1_1_apply (j : S1024x64.Idx) : k1_pay1 (F := Ideal) j = 0 := by
  unfold k1_pay1
  rw [shapeCast_self]
  exact Ideal.ofBits_zero_f32

/-- Region 1's accumulation step at entry (r, q): the accumulator's entry plus row r of the adjacency block against
    column q of the feature block. -/
theorem pay2_1_apply (x0 : Vec Ideal S1024x2048 .f32) (x1 : Vec Ideal S2048x64 .f32) (acc : Vec Ideal S1024x64 .f32)
    (r : Fin 1024) (q : Fin 64) :
    k1_pay2 x0 x1 acc (ix2 r q) = acc (ix2 r q) + ∑ e : Fin 2048, x0 (ix2 r e) * x1 (ix2 e q) := by
  unfold k1_pay2
  simp only [shapeCast_self]
  show acc (ix2 r q) + FloatOps.matmul (F := Ideal) dot_S1024x2048_S2048x64_S1024x64_1_0_0_1_n_n none
      (truncf (F := Ideal) .bf16 x0 bitsLt_bf16_f32) (truncf (F := Ideal) .bf16 x1 bitsLt_bf16_f32)
      (constant (F := Ideal) S1024x64 .f32 0x00000000#32) (ix2 r q) = _
  rw [dot_eq, Cert.LibMatmulNN.matmul_zero_apply]
  rfl

/-- Region 1's written-back value at entry (r, q): the residual entry plus the leaky rectifier of the accumulator's
    entry plus the bias entry. -/
theorem pay3_1_apply (acc : Vec Ideal S1024x64 .f32) (b : Vec Ideal S64 .f32) (x : Vec Ideal S1024x64 .f32)
    (r : Fin 1024) (q : Fin 64) :
    k1_pay3 acc b x (ix2 r q) = x (ix2 r q) + Cert.GcSpec.leaky (acc (ix2 r q) + b (ix1 q)) := by
  unfold k1_pay3
  simp only [shapeCast_self]
  exact leaky_block_apply acc b x r q

variable (V : (c : Dev nD) → (b : Ref sig .tc) → Buf (Elt Ideal) ((c : Thread nD τ).loc b))

/-! ## Region 0 -/

/-- The printed index maps over the grid: point t reads adjacency block (t / 8, t % 8), feature block (t % 8, 0), the
    one bias block, and residual and output blocks (t / 8, 0). -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 1) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 1) = 0
    ∧ win0_3.index t (0 : Fin 2) = t.val / 8 ∧ win0_3.index t (1 : Fin 2) = 0
    ∧ win0_4.index t (0 : Fin 2) = t.val / 8 ∧ win0_4.index t (1 : Fin 2) = 0)

/-- The adjacency block at point t, entry (r, e): the adjacency at row 1024 (t / 8) + r, column 2048 (t % 8) + e. -/
theorem iblk0_0_apply (c : Dev nD) (t : Fin cfg0.N) (r : Fin 1024) (e : Fin 2048) (P E : Fin 16384)
    (hP : P.val = 1024 * (t.val / 8) + r.val) (hE : E.val = 2048 * (t.val % 8) + e.val) :
    iblk0 V c 0 t (ix2 r e) = V c main_arg1 (ix2 P E) := by
  obtain ⟨e0, e1, -⟩ := idx0 t
  unfold iblk0
  rw [View.read_apply]
  show V c main_arg1 _ = V c main_arg1 _
  congr 1
  funext a
  apply Fin.ext
  match a with
  | ⟨0, _⟩ => show win0_0.index t (0 : Fin 2) * 1024 + 1 * r.val = P.val; rw [e0, hP]; omega
  | ⟨1, _⟩ => show win0_0.index t (1 : Fin 2) * 2048 + 1 * e.val = E.val; rw [e1, hE]; omega

/-- The feature block at point t, entry (e, q): the features at row 2048 (t % 8) + e, column q. -/
theorem iblk0_1_apply (c : Dev nD) (t : Fin cfg0.N) (e : Fin 2048) (q : Fin 64) (E : Fin 16384)
    (hE : E.val = 2048 * (t.val % 8) + e.val) :
    iblk0 V c 1 t (ix2 e q) = V c main_v4 (ix2 E q) := by
  obtain ⟨-, -, e2, e3, -⟩ := idx0 t
  unfold iblk0
  rw [View.read_apply]
  show V c main_v4 _ = V c main_v4 _
  congr 1
  funext a
  apply Fin.ext
  match a with
  | ⟨0, _⟩ => show win0_1.index t (0 : Fin 2) * 2048 + 1 * e.val = E.val; rw [e2, hE]; omega
  | ⟨1, _⟩ => show win0_1.index t (1 : Fin 2) * 64 + 1 * q.val = q.val; rw [e3]; omega

/-- The bias block at any point is the bias. -/
theorem iblk0_2_apply (c : Dev nD) (t : Fin cfg0.N) (q : Fin 64) :
    iblk0 V c 2 t (ix1 q) = V c main_arg8 (ix1 q) := by
  obtain ⟨-, -, -, -, e4, -⟩ := idx0 t
  unfold iblk0
  rw [View.read_apply]
  show V c main_arg8 _ = V c main_arg8 _
  congr 1
  funext a
  apply Fin.ext
  match a with
  | ⟨0, _⟩ => show win0_2.index t (0 : Fin 1) * 64 + 1 * q.val = q.val; rw [e4]; omega

/-- The residual block at point t, entry (r, q): the residual at row 1024 (t / 8) + r, column q. -/
theorem iblk0_3_apply (c : Dev nD) (t : Fin cfg0.N) (r : Fin 1024) (q : Fin 64) (P : Fin 16384)
    (hP : P.val = 1024 * (t.val / 8) + r.val) :
    iblk0 V c 3 t (ix2 r q) = V c main_v3 (ix2 P q) := by
  obtain ⟨-, -, -, -, -, e5, e6, -⟩ := idx0 t
  unfold iblk0
  rw [View.read_apply]
  show V c main_v3 _ = V c main_v3 _
  congr 1
  funext a
  apply Fin.ext
  match a with
  | ⟨0, _⟩ => show win0_3.index t (0 : Fin 2) * 1024 + 1 * r.val = P.val; rw [e5, hP]; omega
  | ⟨1, _⟩ => show win0_3.index t (1 : Fin 2) * 64 + 1 * q.val = q.val; rw [e6]; omega

/-- Position e's term of the contraction at row P, column q: adjacency (P, e) times features (e, q). -/
def term0 (c : Dev nD) (P : Fin 16384) (q : Fin 64) (e : Fin 16384) : EReal :=
  HMul.hMul (α := EReal) (β := EReal) (γ := EReal) (V c main_arg1 (ix2 P e)) (V c main_v4 (ix2 e q))

/-- One accumulation step at point t, entry (r, q): the accumulator's entry plus column block t % 8's run of 2048
    terms of the contraction at row 1024 (t / 8) + r. -/
theorem step0 (c : Dev nD) (t : Fin cfg0.N) (acc : Vec Ideal S1024x64 .f32) (r : Fin 1024) (q : Fin 64) (P : Fin 16384)
    (hP : P.val = 1024 * (t.val / 8) + r.val) :
    k0_pay2 (iblk0 V c 0 t) (iblk0 V c 1 t) acc (ix2 r q)
      = acc (ix2 r q) + ∑ e : Fin 2048, term0 V c P q ⟨t.val % 8 * 2048 + e.val, by have := e.isLt; omega⟩ := by
  refine (pay2_0_apply _ _ acc r q).trans ?_
  refine congrArg (fun z : EReal => acc (ix2 r q) + z) (Finset.sum_congr rfl fun e _ => ?_)
  have he : t.val % 8 * 2048 + e.val < 16384 := by have := e.isLt; omega
  rw [iblk0_0_apply V c t r e P ⟨t.val % 8 * 2048 + e.val, he⟩ hP (by dsimp only; omega),
    iblk0_1_apply V c t e q ⟨t.val % 8 * 2048 + e.val, he⟩ (by dsimp only; omega)]
  rfl

/-- At a column block 0 the accumulator holds the zero block plus that point's run of terms. -/
theorem acc0_first_apply (c : Dev nD) (t : Fin cfg0.N) (h : t.val % 8 = 0) (r : Fin 1024) (q : Fin 64) (P : Fin 16384)
    (hP : P.val = 1024 * (t.val / 8) + r.val) :
    acc0 V c t.val t.isLt (ix2 r q)
      = 0 + ∑ e : Fin 2048, term0 V c P q ⟨t.val % 8 * 2048 + e.val, by have := e.isLt; omega⟩ := by
  rw [acc0_first V c t h]
  refine (step0 V c t _ r q P hP).trans ?_
  rw [pay1_0_apply]

/-- At any other column block it holds what the point before left plus that point's run of terms. -/
theorem acc0_next_apply (c : Dev nD) (t : Fin cfg0.N) (h : ¬t.val % 8 = 0) (r : Fin 1024) (q : Fin 64) (P : Fin 16384)
    (hP : P.val = 1024 * (t.val / 8) + r.val) :
    acc0 V c t.val t.isLt (ix2 r q)
      = acc0 V c (t.val - 1) (Nat.lt_of_le_of_lt (Nat.sub_le _ _) t.isLt) (ix2 r q)
        + ∑ e : Fin 2048, term0 V c P q ⟨t.val % 8 * 2048 + e.val, by have := e.isLt; omega⟩ := by
  rw [acc0_next V c t h]
  exact step0 V c t _ r q P hP

/-- The accumulator does not depend on how its position is written. -/
theorem acc0_congr (c : Dev nD) {n m : ℕ} (e : n = m) (hn : n < cfg0.N) (hm : m < cfg0.N) :
    acc0 V c n hn = acc0 V c m hm := by
  subst e; rfl

/-- After column block 7 of row block i the accumulator holds, at (r, q), the whole contraction at row 1024 i + r:
    the eight runs of 2048 terms, added one column block at a time from the zero block. -/
theorem acc0_last (c : Dev nD) (i : ℕ) (hi : i < 16) (h : 8 * i + 7 < cfg0.N) (r : Fin 1024) (q : Fin 64) (P : Fin 16384)
    (hP : P.val = 1024 * i + r.val) :
    acc0 V c (8 * i + 7) h (ix2 r q) = ∑ e : Fin 16384, term0 V c P q e := by
  have hN : cfg0.N = 128 := N_0
  have key : ∀ (a : ℕ → EReal), (∀ (k : ℕ) (hk : 8 * i + k < cfg0.N), a k = acc0 V c (8 * i + k) hk (ix2 r q)) →
      a 7 = ∑ e : Fin 16384, term0 V c P q e := by
    intro a ha
    refine Cert.LibBlockedSum.accum_blocks 7 2048 (term0 V c P q) a ?_ ?_
    · have h0 : 8 * i + 0 < cfg0.N := by omega
      rw [ha 0 h0]
      refine (acc0_first_apply V c ⟨8 * i + 0, h0⟩ (by show (8 * i + 0) % 8 = 0; omega) r q P
        (by show P.val = 1024 * ((8 * i + 0) / 8) + r.val; omega)).trans ?_
      refine congrArg (fun z : EReal => 0 + z) (Finset.sum_congr rfl fun e _ => congrArg _ (Fin.ext ?_))
      show (8 * i + 0) % 8 * 2048 + e.val = 0 * 2048 + e.val
      have h8 : (8 * i + 0) % 8 = 0 := by omega
      rw [h8]
    · intro n hn
      have h1 : 8 * i + (n + 1) < cfg0.N := by omega
      have h2 : 8 * i + n < cfg0.N := by omega
      rw [ha _ h1, ha _ h2]
      refine (acc0_next_apply V c ⟨8 * i + (n + 1), h1⟩ (by show ¬(8 * i + (n + 1)) % 8 = 0; omega) r q P
        (by show P.val = 1024 * ((8 * i + (n + 1)) / 8) + r.val; omega)).trans ?_
      refine congrArg₂ (fun x y : EReal => x + y)
        (congrFun (acc0_congr V c (by show 8 * i + (n + 1) - 1 = 8 * i + n; omega) _ _) _)
        (Finset.sum_congr rfl fun e _ => congrArg _ (Fin.ext ?_))
      show (8 * i + (n + 1)) % 8 * 2048 + e.val = (n + 1) * 2048 + e.val
      have h8 : (8 * i + (n + 1)) % 8 = n + 1 := by omega
      rw [h8]
  refine Eq.trans ?_ (key (fun k => if hk : 8 * i + k < cfg0.N then acc0 V c (8 * i + k) hk (ix2 r q) else 0)
    (fun k hk => dif_pos hk))
  show _ = if hk : 8 * i + 7 < cfg0.N then acc0 V c (8 * i + 7) hk (ix2 r q) else 0
  rw [dif_pos h]

/-- What region 0's output array ends holding: the layer of the arrays the region is entered with. -/
def G0 (c : Dev nD) : S16384x64.Idx → EReal := fun i =>
  Cert.GcSpec.layer (fun p e => V c main_arg1 (ix2 p e)) (fun e q => V c main_v4 (ix2 e q))
    (fun q => V c main_arg8 (ix1 q)) (fun p q => V c main_v3 (ix2 p q)) (i 0) (i 1)

/-- What a point at column block 7 writes back is its block of the layer. -/
theorem flushed0_eq (c : Dev nD) (t : Fin cfg0.N) (hf : (cfg0.win 4).flush t = true) :
    (dat0 (F := Ideal) V c).flushed 4 t = ((cfg0.win 4).blk t).view.read (Elt Ideal) (G0 V c) := by
  have hN : cfg0.N = 128 := N_0
  have h7 : t.val % 8 = 7 := (flush0_4 t).mp hf
  obtain ⟨-, -, -, -, -, -, -, e7, e8⟩ := idx0 t
  show (cfg0.win 4).cut (grid0.coords t) ((dat0 (F := Ideal) V c).after 4 t) = _
  rw [after0_4]
  refine funext fun (j : S1024x64.Idx) => ?_
  obtain ⟨r, q, rfl⟩ : ∃ (r : Fin 1024) (q : Fin 64), j = ix2 r q := ⟨j 0, j 1, eq_ix2 j⟩
  rw [View.read_apply]
  have hlt : 1024 * (t.val / 8) + r.val < 16384 := by have := t.isLt; have := r.isLt; omega
  have hemb : ((cfg0.win 4).blk t).view.emb (ix2 r q) = ix2 (⟨1024 * (t.val / 8) + r.val, hlt⟩ : Fin 16384) q := by
    funext a
    apply Fin.ext
    match a with
    | ⟨0, _⟩ => show win0_4.index t (0 : Fin 2) * 1024 + 1 * r.val = 1024 * (t.val / 8) + r.val; rw [e7]; omega
    | ⟨1, _⟩ => show win0_4.index t (1 : Fin 2) * 64 + 1 * q.val = q.val; rw [e8]; omega
  show out0 V c t (ix2 r q) = G0 V c (((cfg0.win 4).blk t).view.emb (ix2 r q))
  rw [hemb]
  unfold out0
  have hacc : acc0 V c t.val t.isLt (ix2 r q) = ∑ e : Fin 16384, term0 V c ⟨1024 * (t.val / 8) + r.val, hlt⟩ q e := by
    have ht : t.val = 8 * (t.val / 8) + 7 := by omega
    rw [acc0_congr V c ht t.isLt (by omega)]
    exact acc0_last V c (t.val / 8) (by omega) _ r q _ rfl
  rw [pay3_0_apply, iblk0_2_apply, iblk0_3_apply V c t r q ⟨1024 * (t.val / 8) + r.val, hlt⟩ rfl, hacc]
  rfl

/-- An index of the output array is in point t's block iff each coordinate is in the block's range on its axis. -/
theorem mem_blk0 (t : Fin cfg0.N) (i : S16384x64.Idx) :
    i ∈ ((cfg0.win 4).blk t).view.set
      ↔ ∀ a : Fin 2, win0_4.index t a * S1024x64.size a ≤ (i a).val ∧ (i a).val < win0_4.index t a * S1024x64.size a + S1024x64.size a := by
  show i ∈ ((View.whole main_v5).slice (win0_4.rect t)).set ↔ _
  rw [View.set_slice_whole, Rect.mem_set_unit]
  exact Iff.rfl

/-- Row p of the output array is written back by the point at row block p / 1024, column block 7. -/
theorem cover0 (i : S16384x64.Idx) : ∃ t : Fin cfg0.N, (cfg0.win 4).flush t = true ∧ i ∈ ((cfg0.win 4).blk t).view.set := by
  have hN : cfg0.N = 128 := N_0
  have h0 : (i 0).val < 16384 := idx2_lt0 i
  have h1 : (i 1).val < 64 := idx2_lt1 i
  refine ⟨⟨8 * ((i 0).val / 1024) + 7, by omega⟩, (flush0_4 _).mpr (by show (8 * ((i 0).val / 1024) + 7) % 8 = 7; omega), ?_⟩
  obtain ⟨-, -, -, -, -, -, -, e7, e8⟩ := idx0 ⟨8 * ((i 0).val / 1024) + 7, by omega⟩
  rw [mem_blk0]
  intro a
  match a with
  | ⟨0, _⟩ =>
    show win0_4.index _ (0 : Fin 2) * 1024 ≤ (i 0).val ∧ (i 0).val < win0_4.index _ (0 : Fin 2) * 1024 + 1024
    rw [e7]; dsimp only; omega
  | ⟨1, _⟩ =>
    show win0_4.index _ (1 : Fin 2) * 64 ≤ (i 1).val ∧ (i 1).val < win0_4.index _ (1 : Fin 2) * 64 + 64
    rw [e8]; omega

/-- Region 0's output array after the region, entry (p, q): the layer of the arrays the region is entered with. -/
theorem final0 (c : Dev nD) (p : Fin 16384) (q : Fin 64) :
    (dat0 (F := Ideal) V c).arrAt 4 cfg0.N (ValueIdx.ix2 p q)
      = Cert.GcSpec.layer (fun p e => V c main_arg1 (ValueIdx.ix2 p e)) (fun e q => V c main_v4 (ValueIdx.ix2 e q))
          (fun q => V c main_arg8 (ValueIdx.ix1 q)) (fun p q => V c main_v3 (ValueIdx.ix2 p q)) p q :=
  congrFun ((dat0 (F := Ideal) V c).arrAt_eq_of_cover 4 (G0 V c) (flushed0_eq V c) cover0) (ix2 p q)

/-! ## Region 1 -/

/-- The printed index maps over the grid: point t reads adjacency block (t / 8, t % 8), feature block (t % 8, 0), the
    one bias block, and residual and output blocks (t / 8, 0). -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 1) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 1) = 0
    ∧ win1_3.index t (0 : Fin 2) = t.val / 8 ∧ win1_3.index t (1 : Fin 2) = 0
    ∧ win1_4.index t (0 : Fin 2) = t.val / 8 ∧ win1_4.index t (1 : Fin 2) = 0)

/-- The adjacency block at point t, entry (r, e): the adjacency at row 1024 (t / 8) + r, column 2048 (t % 8) + e. -/
theorem iblk1_0_apply (c : Dev nD) (t : Fin cfg1.N) (r : Fin 1024) (e : Fin 2048) (P E : Fin 16384)
    (hP : P.val = 1024 * (t.val / 8) + r.val) (hE : E.val = 2048 * (t.val % 8) + e.val) :
    iblk1 V c 0 t (ix2 r e) = V c main_arg1 (ix2 P E) := by
  obtain ⟨e0, e1, -⟩ := idx1 t
  unfold iblk1
  rw [View.read_apply]
  show V c main_arg1 _ = V c main_arg1 _
  congr 1
  funext a
  apply Fin.ext
  match a with
  | ⟨0, _⟩ => show win1_0.index t (0 : Fin 2) * 1024 + 1 * r.val = P.val; rw [e0, hP]; omega
  | ⟨1, _⟩ => show win1_0.index t (1 : Fin 2) * 2048 + 1 * e.val = E.val; rw [e1, hE]; omega

/-- The feature block at point t, entry (e, q): the features at row 2048 (t % 8) + e, column q. -/
theorem iblk1_1_apply (c : Dev nD) (t : Fin cfg1.N) (e : Fin 2048) (q : Fin 64) (E : Fin 16384)
    (hE : E.val = 2048 * (t.val % 8) + e.val) :
    iblk1 V c 1 t (ix2 e q) = V c main_v6 (ix2 E q) := by
  obtain ⟨-, -, e2, e3, -⟩ := idx1 t
  unfold iblk1
  rw [View.read_apply]
  show V c main_v6 _ = V c main_v6 _
  congr 1
  funext a
  apply Fin.ext
  match a with
  | ⟨0, _⟩ => show win1_1.index t (0 : Fin 2) * 2048 + 1 * e.val = E.val; rw [e2, hE]; omega
  | ⟨1, _⟩ => show win1_1.index t (1 : Fin 2) * 64 + 1 * q.val = q.val; rw [e3]; omega

/-- The bias block at any point is the bias. -/
theorem iblk1_2_apply (c : Dev nD) (t : Fin cfg1.N) (q : Fin 64) :
    iblk1 V c 2 t (ix1 q) = V c main_arg10 (ix1 q) := by
  obtain ⟨-, -, -, -, e4, -⟩ := idx1 t
  unfold iblk1
  rw [View.read_apply]
  show V c main_arg10 _ = V c main_arg10 _
  congr 1
  funext a
  apply Fin.ext
  match a with
  | ⟨0, _⟩ => show win1_2.index t (0 : Fin 1) * 64 + 1 * q.val = q.val; rw [e4]; omega

/-- The residual block at point t, entry (r, q): the residual at row 1024 (t / 8) + r, column q. -/
theorem iblk1_3_apply (c : Dev nD) (t : Fin cfg1.N) (r : Fin 1024) (q : Fin 64) (P : Fin 16384)
    (hP : P.val = 1024 * (t.val / 8) + r.val) :
    iblk1 V c 3 t (ix2 r q) = V c main_v5 (ix2 P q) := by
  obtain ⟨-, -, -, -, -, e5, e6, -⟩ := idx1 t
  unfold iblk1
  rw [View.read_apply]
  show V c main_v5 _ = V c main_v5 _
  congr 1
  funext a
  apply Fin.ext
  match a with
  | ⟨0, _⟩ => show win1_3.index t (0 : Fin 2) * 1024 + 1 * r.val = P.val; rw [e5, hP]; omega
  | ⟨1, _⟩ => show win1_3.index t (1 : Fin 2) * 64 + 1 * q.val = q.val; rw [e6]; omega

/-- Position e's term of the contraction at row P, column q: adjacency (P, e) times features (e, q). -/
def term1 (c : Dev nD) (P : Fin 16384) (q : Fin 64) (e : Fin 16384) : EReal :=
  HMul.hMul (α := EReal) (β := EReal) (γ := EReal) (V c main_arg1 (ix2 P e)) (V c main_v6 (ix2 e q))

/-- One accumulation step at point t, entry (r, q): the accumulator's entry plus column block t % 8's run of 2048
    terms of the contraction at row 1024 (t / 8) + r. -/
theorem step1 (c : Dev nD) (t : Fin cfg1.N) (acc : Vec Ideal S1024x64 .f32) (r : Fin 1024) (q : Fin 64) (P : Fin 16384)
    (hP : P.val = 1024 * (t.val / 8) + r.val) :
    k1_pay2 (iblk1 V c 0 t) (iblk1 V c 1 t) acc (ix2 r q)
      = acc (ix2 r q) + ∑ e : Fin 2048, term1 V c P q ⟨t.val % 8 * 2048 + e.val, by have := e.isLt; omega⟩ := by
  refine (pay2_1_apply _ _ acc r q).trans ?_
  refine congrArg (fun z : EReal => acc (ix2 r q) + z) (Finset.sum_congr rfl fun e _ => ?_)
  have he : t.val % 8 * 2048 + e.val < 16384 := by have := e.isLt; omega
  rw [iblk1_0_apply V c t r e P ⟨t.val % 8 * 2048 + e.val, he⟩ hP (by dsimp only; omega),
    iblk1_1_apply V c t e q ⟨t.val % 8 * 2048 + e.val, he⟩ (by dsimp only; omega)]
  rfl

/-- At a column block 0 the accumulator holds the zero block plus that point's run of terms. -/
theorem acc1_first_apply (c : Dev nD) (t : Fin cfg1.N) (h : t.val % 8 = 0) (r : Fin 1024) (q : Fin 64) (P : Fin 16384)
    (hP : P.val = 1024 * (t.val / 8) + r.val) :
    acc1 V c t.val t.isLt (ix2 r q)
      = 0 + ∑ e : Fin 2048, term1 V c P q ⟨t.val % 8 * 2048 + e.val, by have := e.isLt; omega⟩ := by
  rw [acc1_first V c t h]
  refine (step1 V c t _ r q P hP).trans ?_
  rw [pay1_1_apply]

/-- At any other column block it holds what the point before left plus that point's run of terms. -/
theorem acc1_next_apply (c : Dev nD) (t : Fin cfg1.N) (h : ¬t.val % 8 = 0) (r : Fin 1024) (q : Fin 64) (P : Fin 16384)
    (hP : P.val = 1024 * (t.val / 8) + r.val) :
    acc1 V c t.val t.isLt (ix2 r q)
      = acc1 V c (t.val - 1) (Nat.lt_of_le_of_lt (Nat.sub_le _ _) t.isLt) (ix2 r q)
        + ∑ e : Fin 2048, term1 V c P q ⟨t.val % 8 * 2048 + e.val, by have := e.isLt; omega⟩ := by
  rw [acc1_next V c t h]
  exact step1 V c t _ r q P hP

/-- The accumulator does not depend on how its position is written. -/
theorem acc1_congr (c : Dev nD) {n m : ℕ} (e : n = m) (hn : n < cfg1.N) (hm : m < cfg1.N) :
    acc1 V c n hn = acc1 V c m hm := by
  subst e; rfl

/-- After column block 7 of row block i the accumulator holds, at (r, q), the whole contraction at row 1024 i + r:
    the eight runs of 2048 terms, added one column block at a time from the zero block. -/
theorem acc1_last (c : Dev nD) (i : ℕ) (hi : i < 16) (h : 8 * i + 7 < cfg1.N) (r : Fin 1024) (q : Fin 64) (P : Fin 16384)
    (hP : P.val = 1024 * i + r.val) :
    acc1 V c (8 * i + 7) h (ix2 r q) = ∑ e : Fin 16384, term1 V c P q e := by
  have hN : cfg1.N = 128 := N_1
  have key : ∀ (a : ℕ → EReal), (∀ (k : ℕ) (hk : 8 * i + k < cfg1.N), a k = acc1 V c (8 * i + k) hk (ix2 r q)) →
      a 7 = ∑ e : Fin 16384, term1 V c P q e := by
    intro a ha
    refine Cert.LibBlockedSum.accum_blocks 7 2048 (term1 V c P q) a ?_ ?_
    · have h0 : 8 * i + 0 < cfg1.N := by omega
      rw [ha 0 h0]
      refine (acc1_first_apply V c ⟨8 * i + 0, h0⟩ (by show (8 * i + 0) % 8 = 0; omega) r q P
        (by show P.val = 1024 * ((8 * i + 0) / 8) + r.val; omega)).trans ?_
      refine congrArg (fun z : EReal => 0 + z) (Finset.sum_congr rfl fun e _ => congrArg _ (Fin.ext ?_))
      show (8 * i + 0) % 8 * 2048 + e.val = 0 * 2048 + e.val
      have h8 : (8 * i + 0) % 8 = 0 := by omega
      rw [h8]
    · intro n hn
      have h1 : 8 * i + (n + 1) < cfg1.N := by omega
      have h2 : 8 * i + n < cfg1.N := by omega
      rw [ha _ h1, ha _ h2]
      refine (acc1_next_apply V c ⟨8 * i + (n + 1), h1⟩ (by show ¬(8 * i + (n + 1)) % 8 = 0; omega) r q P
        (by show P.val = 1024 * ((8 * i + (n + 1)) / 8) + r.val; omega)).trans ?_
      refine congrArg₂ (fun x y : EReal => x + y)
        (congrFun (acc1_congr V c (by show 8 * i + (n + 1) - 1 = 8 * i + n; omega) _ _) _)
        (Finset.sum_congr rfl fun e _ => congrArg _ (Fin.ext ?_))
      show (8 * i + (n + 1)) % 8 * 2048 + e.val = (n + 1) * 2048 + e.val
      have h8 : (8 * i + (n + 1)) % 8 = n + 1 := by omega
      rw [h8]
  refine Eq.trans ?_ (key (fun k => if hk : 8 * i + k < cfg1.N then acc1 V c (8 * i + k) hk (ix2 r q) else 0)
    (fun k hk => dif_pos hk))
  show _ = if hk : 8 * i + 7 < cfg1.N then acc1 V c (8 * i + 7) hk (ix2 r q) else 0
  rw [dif_pos h]

/-- What region 1's output array ends holding: the layer of the arrays the region is entered with. -/
def G1 (c : Dev nD) : S16384x64.Idx → EReal := fun i =>
  Cert.GcSpec.layer (fun p e => V c main_arg1 (ix2 p e)) (fun e q => V c main_v6 (ix2 e q))
    (fun q => V c main_arg10 (ix1 q)) (fun p q => V c main_v5 (ix2 p q)) (i 0) (i 1)

/-- What a point at column block 7 writes back is its block of the layer. -/
theorem flushed1_eq (c : Dev nD) (t : Fin cfg1.N) (hf : (cfg1.win 4).flush t = true) :
    (dat1 (F := Ideal) V c).flushed 4 t = ((cfg1.win 4).blk t).view.read (Elt Ideal) (G1 V c) := by
  have hN : cfg1.N = 128 := N_1
  have h7 : t.val % 8 = 7 := (flush1_4 t).mp hf
  obtain ⟨-, -, -, -, -, -, -, e7, e8⟩ := idx1 t
  show (cfg1.win 4).cut (grid1.coords t) ((dat1 (F := Ideal) V c).after 4 t) = _
  rw [after1_4]
  refine funext fun (j : S1024x64.Idx) => ?_
  obtain ⟨r, q, rfl⟩ : ∃ (r : Fin 1024) (q : Fin 64), j = ix2 r q := ⟨j 0, j 1, eq_ix2 j⟩
  rw [View.read_apply]
  have hlt : 1024 * (t.val / 8) + r.val < 16384 := by have := t.isLt; have := r.isLt; omega
  have hemb : ((cfg1.win 4).blk t).view.emb (ix2 r q) = ix2 (⟨1024 * (t.val / 8) + r.val, hlt⟩ : Fin 16384) q := by
    funext a
    apply Fin.ext
    match a with
    | ⟨0, _⟩ => show win1_4.index t (0 : Fin 2) * 1024 + 1 * r.val = 1024 * (t.val / 8) + r.val; rw [e7]; omega
    | ⟨1, _⟩ => show win1_4.index t (1 : Fin 2) * 64 + 1 * q.val = q.val; rw [e8]; omega
  show out1 V c t (ix2 r q) = G1 V c (((cfg1.win 4).blk t).view.emb (ix2 r q))
  rw [hemb]
  unfold out1
  have hacc : acc1 V c t.val t.isLt (ix2 r q) = ∑ e : Fin 16384, term1 V c ⟨1024 * (t.val / 8) + r.val, hlt⟩ q e := by
    have ht : t.val = 8 * (t.val / 8) + 7 := by omega
    rw [acc1_congr V c ht t.isLt (by omega)]
    exact acc1_last V c (t.val / 8) (by omega) _ r q _ rfl
  rw [pay3_1_apply, iblk1_2_apply, iblk1_3_apply V c t r q ⟨1024 * (t.val / 8) + r.val, hlt⟩ rfl, hacc]
  rfl

/-- An index of the output array is in point t's block iff each coordinate is in the block's range on its axis. -/
theorem mem_blk1 (t : Fin cfg1.N) (i : S16384x64.Idx) :
    i ∈ ((cfg1.win 4).blk t).view.set
      ↔ ∀ a : Fin 2, win1_4.index t a * S1024x64.size a ≤ (i a).val ∧ (i a).val < win1_4.index t a * S1024x64.size a + S1024x64.size a := by
  show i ∈ ((View.whole main_v7).slice (win1_4.rect t)).set ↔ _
  rw [View.set_slice_whole, Rect.mem_set_unit]
  exact Iff.rfl

/-- Row p of the output array is written back by the point at row block p / 1024, column block 7. -/
theorem cover1 (i : S16384x64.Idx) : ∃ t : Fin cfg1.N, (cfg1.win 4).flush t = true ∧ i ∈ ((cfg1.win 4).blk t).view.set := by
  have hN : cfg1.N = 128 := N_1
  have h0 : (i 0).val < 16384 := idx2_lt0 i
  have h1 : (i 1).val < 64 := idx2_lt1 i
  refine ⟨⟨8 * ((i 0).val / 1024) + 7, by omega⟩, (flush1_4 _).mpr (by show (8 * ((i 0).val / 1024) + 7) % 8 = 7; omega), ?_⟩
  obtain ⟨-, -, -, -, -, -, -, e7, e8⟩ := idx1 ⟨8 * ((i 0).val / 1024) + 7, by omega⟩
  rw [mem_blk1]
  intro a
  match a with
  | ⟨0, _⟩ =>
    show win1_4.index _ (0 : Fin 2) * 1024 ≤ (i 0).val ∧ (i 0).val < win1_4.index _ (0 : Fin 2) * 1024 + 1024
    rw [e7]; dsimp only; omega
  | ⟨1, _⟩ =>
    show win1_4.index _ (1 : Fin 2) * 64 ≤ (i 1).val ∧ (i 1).val < win1_4.index _ (1 : Fin 2) * 64 + 64
    rw [e8]; omega

/-- Region 1's output array after the region, entry (p, q): the layer of the arrays the region is entered with. -/
theorem final1 (c : Dev nD) (p : Fin 16384) (q : Fin 64) :
    (dat1 (F := Ideal) V c).arrAt 4 cfg1.N (ValueIdx.ix2 p q)
      = Cert.GcSpec.layer (fun p e => V c main_arg1 (ValueIdx.ix2 p e)) (fun e q => V c main_v6 (ValueIdx.ix2 e q))
          (fun q => V c main_arg10 (ValueIdx.ix1 q)) (fun p q => V c main_v5 (ValueIdx.ix2 p q)) p q :=
  congrFun ((dat1 (F := Ideal) V c).arrAt_eq_of_cover 4 (G1 V c) (flushed1_eq V c) cover1) (ix2 p q)

end Cert.KernelIdeal.Hand

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«176179_j3418793968209_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.Ref.LayerAt.lean ====
/-
  A layer of the reference read at an entry: the residual entry plus the leaky rectifier of the row of the adjacency
  against the column of the projected features plus the bias entry.
-/
import proofs.«176179_j3418793968209_1_alg».proof.Proof.Ref.Spec
import proofs.«176179_j3418793968209_1_alg».proof.Proof.Spec
import proofs.«176179_j3418793968209_1_alg».proof.Proof.LibDotNN
import proofs.«176179_j3418793968209_1_alg».proof.Proof.LibBroadcastInDim
import proofs.«176179_j3418793968209_1_alg».proof.Proof.LibBiasRow
import Idealize.ShloMosaic.Lib.ValueIdx

noncomputable section

namespace Cert.ReferenceIdeal.Hand

open Cert.ReferenceIdeal Cert.ReferenceIdeal.Facts₀
open Idealize.ShloMosaic Idealize.ShloMosaic.ValueIdx

/-- The adjacency times a feature matrix, at row `p`, column `q`: the sum over the nodes. -/
theorem aggregate_apply (A : FVec Ideal S16384x16384 .f32) (Y : FVec Ideal S16384x64 .f32) (p : Fin 16384) (q : Fin 64) :
    Host.dotGeneral (F := Ideal) dot_S16384x16384_S16384x64_S16384x64_1_0_0_1_n_n none A Y (ix2 p q)
      = ∑ e : Fin 16384, A (ix2 p e) * Y (ix2 e q) :=
  Cert.LibDotNN.dotGeneral_apply dot_S16384x16384_S16384x64_S16384x64_1_0_0_1_n_n_wf none .single A Y p q

/-- A bias vector laid on every row, at `(p, q)`: the vector at `q`. -/
theorem bias_apply (b : FVec Ideal S64 .f32) (p : Fin 16384) (q : Fin 64) :
    broadcastInDim S16384x64 ![0, 1] bcast_S1x64_S16384x64_0_1 (broadcastInDim S1x64 ![1] bcast_S64_S1x64_1 b) (ix2 p q) = b (ix1 q) :=
  (BroadcastRead.row_apply _ bcast_S1x64_S16384x64_0_1 p q).trans (BroadcastRead.vector_row_apply b bcast_S64_S1x64_1 0 q)

/-- A constant spread over the node features, at any entry: the constant. -/
theorem const_apply (w : BitVec 32) (p : Fin 16384) (q : Fin 64) :
    broadcastInDim S16384x64 ![] bcast_S_S16384x64 (constant (F := Ideal) S_ .f32 w) (ix2 p q) = Ideal.ofBits .f32 w :=
  BiasRead.scalar_apply _ bcast_S_S16384x64 (ix2 p q) (fun d => d.elim0)

theorem layer_apply (A : FVec Ideal S16384x16384 .f32) (X : FVec Ideal S16384x64 .f32) (W : FVec Ideal S64x64 .f32)
    (b : FVec Ideal S64 .f32) (p : Fin 16384) (q : Fin 64) :
    layer (F := Ideal) A X W b (ix2 p q)
      = Cert.GcSpec.layer (fun p e => A (ix2 p e)) (fun e q => proj (F := Ideal) X W (ix2 e q)) (fun q => b (ix1 q))
          (fun p q => X (ix2 p q)) p q := by
  unfold layer Cert.GcSpec.layer Cert.GcSpec.leaky
  dsimp only
  simp only [addf_apply, select_apply, cmpf_apply, mulf_apply, id_eq]
  rw [aggregate_apply, bias_apply, const_apply, const_apply]

end Cert.ReferenceIdeal.Hand

end
-- ==== Proof.Cross.lean ====
/-
  The program's host functions and the reference's are the same functions: each pair is the same composition of
  the same operations on arrays of the same shapes, spelled over each program's own names for the shapes.
-/
import proofs.«176179_j3418793968209_1_alg».proof.Proof.KI.HostSpec
import proofs.«176179_j3418793968209_1_alg».proof.Proof.Ref.Spec
import Idealize.ShloMosaic.PureOps.Ideal

set_option maxRecDepth 16384

noncomputable section

namespace Cert.Proof.Cross

open Idealize.ShloMosaic

theorem embed_eq : @Cert.KernelIdeal.Hand.embed Ideal _ = @Cert.ReferenceIdeal.Hand.embed Ideal _ := rfl

theorem proj_eq : @Cert.KernelIdeal.Hand.proj Ideal _ = @Cert.ReferenceIdeal.Hand.proj Ideal _ := rfl

theorem tail_eq : @Cert.KernelIdeal.Hand.tail Ideal _ = @Cert.ReferenceIdeal.Hand.tail Ideal _ := rfl

end Cert.Proof.Cross

end
-- ==== Proof.Bridge.lean ====
/-
  The two programs compute the same result from the same arguments. Each region leaves in its output array one
  layer of the graph convolution, entry by entry (the sum over all nodes split into eight column blocks by the
  kernel's grid); the reference's layer read at an entry is the same expression; the host operations before,
  between and after the regions are the reference's own. So the second layer's outputs agree as arrays, and the
  closing operations are one function applied to them.
-/
import proofs.«176179_j3418793968209_1_alg».proof.Proof.KI.Frame
import proofs.«176179_j3418793968209_1_alg».proof.Proof.KI.HostValue
import proofs.«176179_j3418793968209_1_alg».proof.Proof.KI.Value
import proofs.«176179_j3418793968209_1_alg».proof.Proof.Ref.LayerAt
import proofs.«176179_j3418793968209_1_alg».proof.Proof.Cross
import proofs.«176179_j3418793968209_1_alg».proof.Proof.Spec

set_option maxRecDepth 16384

noncomputable section

namespace Cert.Proof.Bridge

open Idealize.ShloMosaic Idealize.ShloMosaic.ValueIdx Idealize.ShloMosaic.TcCoe
open Idealize.SL Idealize.SL.Sem
open Cert.KernelIdeal Cert.KernelIdeal.Gen Cert.KernelIdeal.Hand

variable (m : (ℓ : Loc nD τ sig) → Buf (Elt Ideal) ℓ) (c : Dev nD)

/-- An argument's launch contents. -/
abbrev arg (r : Ref sig .tc) : Buf (Elt Ideal) ((c : Thread nD τ).loc r) := m ((c : Thread nD τ).loc r)

/-- The embedded features, as the reference spells them. -/
abbrev x0 : (⟨Cert.ReferenceIdeal.S16384x64, .f32⟩ : BufTy).Contents (Elt Ideal) :=
  Cert.ReferenceIdeal.Hand.embed (arg m c main_arg0) (arg m c main_arg5) (arg m c main_arg6)

/-- The first layer's output, as the reference spells it. -/
abbrev x1 : (⟨Cert.ReferenceIdeal.S16384x64, .f32⟩ : BufTy).Contents (Elt Ideal) :=
  Cert.ReferenceIdeal.Hand.layer (arg m c main_arg1) (x0 m c) (arg m c main_arg7) (arg m c main_arg8)

/-- The second layer's output, as the reference spells it. -/
abbrev x2 : (⟨Cert.ReferenceIdeal.S16384x64, .f32⟩ : BufTy).Contents (Elt Ideal) :=
  Cert.ReferenceIdeal.Hand.layer (arg m c main_arg1) (x1 m c) (arg m c main_arg9) (arg m c main_arg10)

/-- A buffer no host stretch writes and no region stages holds its launch contents at region 1's exit. -/
theorem W4_plain (r : Ref sig .tc) (hr1 : ∀ w, Pipeline.arrRef spec1 w ≠ r) (h1 : r ∉ hostOps1_W)
    (hr0 : ∀ w, Pipeline.arrRef spec0 w ≠ r) (h0 : r ∉ hostOps0_W) :
    W4 m c (Proc.devRef .tc r) = m ((c : Thread nD τ).loc r) :=
  (W4_of_ne m c r hr1).trans <| (W3_eq_W2 m c r h1).trans <| (W2_of_ne m c r hr0).trans (W1_eq_m m c r h0)

/-- Region 0 is entered with the embedded features in place. -/
theorem V1_x0 : Hand.V1 m c main_v3 = x0 m c :=
  (W1_v3 m c).trans (by rw [Cross.embed_eq])

/-- … and with their projection by the first layer's weights. -/
theorem V1_y1 : Hand.V1 m c main_v4 = Cert.ReferenceIdeal.Hand.proj (x0 m c) (arg m c main_arg7) :=
  (W1_v4 m c).trans (by rw [Cross.proj_eq, Cross.embed_eq])

/-- Region 0 leaves the first layer's output. -/
theorem W2_x1 : W2 m c (Proc.devRef .tc main_v5) = x1 m c := by
  funext j
  obtain ⟨p, q, rfl⟩ : ∃ (p : Fin 16384) (q : Fin 64), j = ix2 p q := ⟨j 0, j 1, eq_ix2 j⟩
  refine (congrFun (W2_arr m c 4) (ix2 p q)).trans ?_
  rw [final0]
  refine Eq.trans ?_ (Cert.ReferenceIdeal.Hand.layer_apply _ _ _ _ p q).symm
  rw [V1_x0, V1_y1,
    show Hand.V1 m c main_arg1 = arg m c main_arg1 from W1_eq_m m c main_arg1 (by decide),
    show Hand.V1 m c main_arg8 = arg m c main_arg8 from W1_eq_m m c main_arg8 (by decide)]

/-- Region 1 is entered with the first layer's output projected by the second layer's weights. -/
theorem V3_y2 : Hand.V3 m c main_v6 = Cert.ReferenceIdeal.Hand.proj (x1 m c) (arg m c main_arg9) := by
  refine (W3_v6 m c).trans ?_
  rw [W2_x1 m c, (W2_of_ne m c main_arg9 (by decide)).trans (W1_eq_m m c main_arg9 (by decide)), Cross.proj_eq]

/-- Region 1 leaves the second layer's output. -/
theorem W4_x2 : W4 m c (Proc.devRef .tc main_v7) = x2 m c := by
  funext j
  obtain ⟨p, q, rfl⟩ : ∃ (p : Fin 16384) (q : Fin 64), j = ix2 p q := ⟨j 0, j 1, eq_ix2 j⟩
  refine (congrFun (W4_arr m c 4) (ix2 p q)).trans ?_
  rw [final1]
  refine Eq.trans ?_ (Cert.ReferenceIdeal.Hand.layer_apply _ _ _ _ p q).symm
  rw [V3_y2 m c,
    show Hand.V3 m c main_arg1 = arg m c main_arg1 from
      (W3_eq_W2 m c main_arg1 (by decide)).trans ((W2_in m c 0 rfl).trans (W1_eq_m m c main_arg1 (by decide))),
    show Hand.V3 m c main_arg10 = arg m c main_arg10 from
      (W3_eq_W2 m c main_arg10 (by decide)).trans ((W2_of_ne m c main_arg10 (by decide)).trans (W1_eq_m m c main_arg10 (by decide))),
    show Hand.V3 m c main_v5 = x1 m c from (W3_eq_W2 m c main_v5 (by decide)).trans (W2_x1 m c)]

/-- The program's result is the reference's function of the launch arguments. -/
theorem result_eq : W7 m c (Proc.devRef .tc main_v53)
    = Cert.ReferenceIdeal.Hand.tail (x2 m c) (arg m c main_arg4) (arg m c main_arg11) (arg m c main_arg12)
        (arg m c main_arg13) (arg m c main_arg14) (arg m c main_arg15) (arg m c main_arg16) := by
  rw [W7_result, W4_x2 m c,
    W4_plain m c main_arg4 (by decide) (by decide) (by decide) (by decide),
    W4_plain m c main_arg11 (by decide) (by decide) (by decide) (by decide),
    W4_plain m c main_arg12 (by decide) (by decide) (by decide) (by decide),
    W4_plain m c main_arg13 (by decide) (by decide) (by decide) (by decide),
    W4_plain m c main_arg14 (by decide) (by decide) (by decide) (by decide),
    W4_plain m c main_arg15 (by decide) (by decide) (by decide) (by decide),
    W4_plain m c main_arg16 (by decide) (by decide) (by decide) (by decide), Cross.tail_eq]

end Cert.Proof.Bridge

end
-- ==== Proof.lean ====
/-
  The certificate's five claims for the two-layer graph convolution.

  The kernel's program is two pipelined regions among host operations. Each region walks a 16 by 8 grid of blocks of
  the adjacency matrix: along a row of blocks a scratch accumulator sums the products of the adjacency blocks with
  the matching blocks of the projected features, and at the row's last block the output block is the residual plus
  the leaky rectifier of the accumulator plus the bias. The frame of the program (it terminates, faults nowhere and
  leaves its arguments alone) follows from the body of each region run once per control case and the contents of
  every buffer at each boundary between the host stretches and the regions; it holds at any float model, so at the
  word level and at the exact one. At the exact model the accumulator after a row of blocks is the sum over all
  the nodes, so each region leaves one layer of the reference in its output array, the host operations around the
  regions are the reference's own, and the two results are one function of the arguments. The idealizing pass
  rewrote nothing, so the word-level program's idealization is its own text.
-/
import proofs.«176179_j3418793968209_1_alg».proof.Defs
import proofs.«176179_j3418793968209_1_alg».proof.Proof.Gen.Kernel
import proofs.«176179_j3418793968209_1_alg».proof.Proof.Gen.KernelIdeal
import proofs.«176179_j3418793968209_1_alg».proof.Proof.Gen.ReferenceIdeal
import proofs.«176179_j3418793968209_1_alg».proof.Proof.Gen.Pre_finite_inputs
import proofs.«176179_j3418793968209_1_alg».proof.Proof.K.Frame
import proofs.«176179_j3418793968209_1_alg».proof.Proof.KI.Frame
import proofs.«176179_j3418793968209_1_alg».proof.Proof.Ref.Run
import proofs.«176179_j3418793968209_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

open Cert.KernelIdeal Cert.KernelIdeal.Hand in
/-- Both programs run from memories that agree on the arguments; the kernel's result buffer ends at the contents the
    last boundary names, the reference's at its own function of its arguments, and the two are equal. -/
theorem algebraic : Cert.algebraic_KernelIdeal_ReferenceIdeal := by
  intro m ρ m' ρ' _ hagree
  refine ⟨fun c => W7 m c (Proc.devRef .tc main_v53), ?_, ?_⟩
  · exact (θ_run Cert.KernelIdeal.defs _ _).mono (fun r h c => ⟨h c _ (mem_uc main_v53 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c),
      (h c _ (mem_uc main_arg11 (by decide))).trans (W7_main_arg11 m c),
      (h c _ (mem_uc main_arg12 (by decide))).trans (W7_main_arg12 m c),
      (h c _ (mem_uc main_arg13 (by decide))).trans (W7_main_arg13 m c),
      (h c _ (mem_uc main_arg14 (by decide))).trans (W7_main_arg14 m c),
      (h c _ (mem_uc main_arg15 (by decide))).trans (W7_main_arg15 m c),
      (h c _ (mem_uc main_arg16 (by decide))).trans (W7_main_arg16 m c)⟩) (run_all m ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12, e13, e14, e15, e16⟩ := hagree c
    rw [e0, e1, e4, e5, e6, e7, e8, e9, e10, e11, e12, e13, e14, e15, e16]
    exact (Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
